-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x384 : Shape := ⟨2, ![1024, 384]⟩
abbrev S768x768 : Shape := ⟨2, ![768, 768]⟩
abbrev S768 : Shape := ⟨1, ![768]⟩
abbrev S768x147456 : Shape := ⟨2, ![768, 147456]⟩
abbrev S_ : Shape := ⟨0, ![]⟩

class Facts : Prop where
  bcast_S_S1024x384 : S_.BroadcastsInDim S1024x384 (![] : Fin 0 → Fin S1024x384.rank)
  reducesTo_S1024x384_S_d0_1 : S1024x384.ReducesTo [0, 1] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S768x147456 : S_.BroadcastsInDim S768x147456 (![] : Fin 0 → Fin S768x147456.rank)
  reducesTo_S768x147456_S_d0_1 : S768x147456.ReducesTo [0, 1] S_

variable [Facts]

def fn_part1 {F : FTy → Type} [FloatOps F] (main_arg4 : FVec F S768x147456 .f32) (main_arg5 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x147456 .f32 := Host.absf main_arg4
  let main_cst_6 : FVec F S_ .f32 := constant S_ .f32 0x7F800000#32
  let main_v20 : FVec F S768x147456 .f32 := broadcastInDim S768x147456 ![] bcast_S_S768x147456 main_cst_6
  let main_v21 : IVec S768x147456 1 := cmpf .olt main_v19 main_v20
  let main_c_7 : IVec S_ 1 := constantI S_ 1 1#1
  let main_v22 : IVec S_ 1 := (fun x v => Host.reduce IntOp.andi x v reducesTo_S768x147456_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S1024x384 .f32) (main_arg1 : FVec F S1024x384 .f32) (main_arg2 : FVec F S768x768 .f32) (main_arg3 : FVec F S768 .f32) (main_arg4 : FVec F S768x147456 .f32) (main_arg5 : FVec F S768 .f32) : IVec S_ 1 :=
  let main_v0 : FVec F S1024x384 .f32 := Host.absf main_arg0
  let main_cst : FVec F S_ .f32 := constant S_ .f32 0x7F800000#32
  let main_v1 : FVec F S1024x384 .f32 := broadcastInDim S1024x384 ![] bcast_S_S1024x384 main_cst
  let main_v2 : IVec S1024x384 1 := cmpf .olt main_v0 main_v1
  let main_c : IVec S_ 1 := constantI S_ 1 1#1
  let main_v3 : IVec S_ 1 := (fun x v => Host.reduce IntOp.andi x v reducesTo_S1024x384_S_d0_1 h_S_) main_v2 main_c
  let main_v4 : FVec F S1024x384 .f32 := Host.absf main_arg1
  let main_cst_0 : FVec F S_ .f32 := constant S_ .f32 0x7F800000#32
  let main_v5 : FVec F S1024x384 .f32 := broadcastInDim S1024x384 ![] bcast_S_S1024x384 main_cst_0
  let main_v6 : IVec S1024x384 1 := cmpf .olt main_v4 main_v5
  let main_c_1 : IVec S_ 1 := constantI S_ 1 1#1
  let main_v7 : IVec S_ 1 := (fun x v => Host.reduce IntOp.andi x v reducesTo_S1024x384_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_v13 main_v16
-- ==== Kernel.lean ====
abbrev S1024x384 : Shape := ⟨2, ![1024, 384]⟩
abbrev S768x768 : Shape := ⟨2, ![768, 768]⟩
abbrev S768 : Shape := ⟨1, ![768]⟩
abbrev S768x147456 : Shape := ⟨2, ![768, 147456]⟩
abbrev S1024x768 : Shape := ⟨2, ![1024, 768]⟩
abbrev S1x768 : Shape := ⟨2, ![1, 768]⟩
abbrev S512x768 : Shape := ⟨2, ![512, 768]⟩
abbrev S768x384x384 : Shape := ⟨3, ![768, 384, 384]⟩
abbrev S1024x128 : Shape := ⟨2, ![1024, 128]⟩
abbrev S128x128x384 : Shape := ⟨3, ![128, 128, 384]⟩
abbrev S1x128 : Shape := ⟨2, ![1, 128]⟩
abbrev S128x49152 : Shape := ⟨2, ![128, 49152]⟩
abbrev S64x128 : Shape := ⟨2, ![64, 128]⟩
abbrev S64x384 : Shape := ⟨2, ![64, 384]⟩
abbrev S64x128x1 : Shape := ⟨3, ![64, 128, 1]⟩
abbrev S64x1x384 : Shape := ⟨3, ![64, 1, 384]⟩
abbrev S64x128x384 : Shape := ⟨3, ![64, 128, 384]⟩
abbrev S64x49152 : Shape := ⟨2, ![64, 49152]⟩
abbrev S1024x1536 : Shape := ⟨2, ![1024, 1536]⟩

abbrev nBuf : Space → Nat
  | .hbm => 15
  | .vmem => 15
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S768x768, .f32⟩
  | .hbm, ⟨3, _⟩ => ⟨S768, .f32⟩
  | .hbm, ⟨4, _⟩ => ⟨S768x147456, .f32⟩
  | .hbm, ⟨5, _⟩ => ⟨S768, .f32⟩
  | .hbm, ⟨6, _⟩ => ⟨S1024x768, .f32⟩
  | .hbm, ⟨7, _⟩ => ⟨S768x768, .f32⟩
  | .hbm, ⟨8, _⟩ => ⟨S1x768, .f32⟩
  | .hbm, ⟨9, _⟩ => ⟨S1024x768, .f32⟩
  | .hbm, ⟨10, _⟩ => ⟨S768x147456, .bf16⟩
  | .hbm, ⟨11, _⟩ => ⟨S768x384x384, .bf16⟩
  | .hbm, ⟨12, _⟩ => ⟨S1x768, .f32⟩
  | .hbm, ⟨13, _⟩ => ⟨S1024x768, .f32⟩
  | .hbm, ⟨14, _⟩ => ⟨S1024x1536, .f32⟩
  | .local _ .vmem, ⟨0, _⟩ => ⟨S512x768, .f32⟩
  | .local _ .vmem, ⟨1, _⟩ => ⟨S512x768, .f32⟩
  | .local _ .vmem, ⟨2, _⟩ => ⟨S768x768, .f32⟩
  | .local _ .vmem, ⟨3, _⟩ => ⟨S1x768, .f32⟩
  | .local _ .vmem, ⟨4, _⟩ => ⟨S512x768, .f32⟩
  | .local _ .vmem, ⟨5, _⟩ => ⟨S512x768, .f32⟩
  | .local _ .vmem, ⟨6, _⟩ => ⟨S1024x128, .f32⟩
  | .local _ .vmem, ⟨7, _⟩ => ⟨S1024x128, .f32⟩
  | .local _ .vmem, ⟨8, _⟩ => ⟨S1024x384, .f32⟩
  | .local _ .vmem, ⟨9, _⟩ => ⟨S128x128x384, .bf16⟩
  | .local _ .vmem, ⟨10, _⟩ => ⟨S128x128x384, .bf16⟩
  | .local _ .vmem, ⟨11, _⟩ => ⟨S1x128, .f32⟩
  | .local _ .vmem, ⟨12, _⟩ => ⟨S1x128, .f32⟩
  | .local _ .vmem, ⟨13, _⟩ => ⟨S1024x128, .f32⟩
  | .local _ .vmem, ⟨14, _⟩ => ⟨S1024x128, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![6, 3], ![false, false]⟩

@[reducible] def k1_t1_loop : Scf.Loop 32 :=
  let c0_i32_3 : BitVec 32 := 0#32
  let c16_i32 : BitVec 32 := 16#32
  let v6 : BitVec 32 := Scalar.addi c0_i32_3 c16_i32
  let c1_i32 : BitVec 32 := 1#32
  ⟨c0_i32_3, v6, c1_i32⟩
def k1_mult1 (k1_t1 : Fin k1_t1_loop.trips) : BitVec 32 :=
  let c0_i32_7 : BitVec 32 := 0#32
  let c0_i32_3 : BitVec 32 := 0#32
  let c1_i32 : BitVec 32 := 1#32
  let arg7 : BitVec 32 := Scf.iv c0_i32_3 c1_i32 k1_t1
  let c1_i32_6 : BitVec 32 := 1#32
  let v10 : BitVec 32 := Scalar.muli arg7 c1_i32_6
  let v11 : BitVec 32 := Scalar.addi c0_i32_7 v10
  let c64_i32 : BitVec 32 := 64#32
  let v12 : BitVec 32 := Scalar.muli v11 c64_i32
  v12
def k1_off1 (k1_t1 : Fin k1_t1_loop.trips) : Fin 2 → Nat :=
  let c0_i32_7 : BitVec 32 := 0#32
  let c0_i32_3 : BitVec 32 := 0#32
  let c1_i32 : BitVec 32 := 1#32
  let arg7 : BitVec 32 := Scf.iv c0_i32_3 c1_i32 k1_t1
  let c1_i32_6 : BitVec 32 := 1#32
  let v10 : BitVec 32 := Scalar.muli arg7 c1_i32_6
  let v11 : BitVec 32 := Scalar.addi c0_i32_7 v10
  let c64_i32 : BitVec 32 := 64#32
  let v12 : BitVec 32 := Scalar.muli v11 c64_i32
  let v13 : BitVec 32 := v12
  let v14 : Index := Scalar.indexCast v13
  let c0_8 : Index := 0#32
  ![v14.toNat, 0]
def k1_off2 (k1_t1 : Fin k1_t1_loop.trips) : Fin 2 → Nat :=
  let c0_i32_7 : BitVec 32 := 0#32
  let c0_i32_3 : BitVec 32 := 0#32
  let c1_i32 : BitVec 32 := 1#32
  let arg7 : BitVec 32 := Scf.iv c0_i32_3 c1_i32 k1_t1
  let c1_i32_6 : BitVec 32 := 1#32
  let v10 : BitVec 32 := Scalar.muli arg7 c1_i32_6
  let v11 : BitVec 32 := Scalar.addi c0_i32_7 v10
  let c64_i32 : BitVec 32 := 64#32
  let v12 : BitVec 32 := Scalar.muli v11 c64_i32
  let v13 : BitVec 32 := v12
  let v17 : Index := Scalar.indexCast v13
  let c0_9 : Index := 0#32
  ![v17.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S128x128x384 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  concatenates_S1024x384_S1024x384_S1024x768_d1 : Shape.Concatenates [S1024x384, S1024x384] S1024x768 1
  transposes_S768x768_S768x768_1_0 : S768x768.Transposes [1, 0] S768x768
  shapeCasts_S768_S1x768 : S768.ShapeCasts S1x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  shapeCasts_S768x147456_S768x384x384 : S768x147456.ShapeCasts S768x384x384
  inb_S1024x128_S1024x128_0_0 : ∀ a, (![0, 0] : Fin 2 → Nat) a + S1024x128.size a ≤ S1024x128.size a
  h_S1024x128 : 0 < S1024x128.numel
  inb_S128x128x384_S128x128x384_0_0_0 : ∀ a, (![0, 0, 0] : Fin 3 → Nat) a + S128x128x384.size a ≤ S128x128x384.size a
  h_S128x128x384 : 0 < S128x128x384.numel
  shapeCasts_S128x128x384_S128x128x384 : S128x128x384.ShapeCasts S128x128x384
  shapeCasts_S128x128x384_S128x49152 : S128x128x384.ShapeCasts S128x49152
  h_S64x128 : 0 < S64x128.numel
  h_S64x384 : 0 < S64x384.numel
  shapeCasts_S64x128_S64x128x1 : S64x128.ShapeCasts S64x128x1
  shapeCasts_S64x384_S64x1x384 : S64x384.ShapeCasts S64x1x384
  broadcasts_S64x128x1_S64x128x384 : S64x128x1.Broadcasts S64x128x384
  broadcasts_S64x1x384_S64x128x384 : S64x1x384.Broadcasts S64x128x384
  shapeCasts_S64x128x384_S64x49152 : S64x128x384.ShapeCasts S64x49152
  shapeCasts_S64x128_S64x128 : S64x128.ShapeCasts S64x128
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  concatenates_S1024x768_S1024x768_S1024x1536_d1 : Shape.Concatenates [S1024x768, S1024x768] S1024x1536 1
  dot_S512x768_S768x768_S512x768_1_0_0_1_n_n_wf : DotDims.WF S512x768 S768x768 S512x768 [1] [0] [0] [1] [] []
  dot_S64x49152_S128x49152_S64x128_1_1_0_0_n_n_wf : DotDims.WF S64x49152 S128x49152 S64x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S1024x768.size a
  hwx0_0 : ∀ i : grid0.Coords, EltTy.bits .f32 = 32 ∨ (Rect.block (s := S1024x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x768.size a ≤ S1024x768.size a
  hwx0_3 : ∀ i : grid0.Coords, EltTy.bits .f32 = 32 ∨ (Rect.block (s := S1024x768) S512x768.size (cc0_transform_3 i) (hinb0_3 i)).WholeWords (EltTy.packing .f32)
  hrank1 : 0 < grid1.rank
  k1_t1_ok : k1_t1_loop.OK
  k1_mult1_dvd : ∀ k1_t1 : Fin k1_t1_loop.trips, 64 ∣ (k1_mult1 k1_t1).toNat
  k1_off1_inb : ∀ k1_t1 : Fin k1_t1_loop.trips, ∀ a, (k1_off1 k1_t1) a + S64x128.size a ≤ S1024x128.size a
  k1_off2_inb : ∀ k1_t1 : Fin k1_t1_loop.trips, ∀ a, (k1_off2 k1_t1) a + S64x384.size a ≤ S1024x384.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S1024x384.size a
  hwx1_0 : ∀ i : grid1.Coords, EltTy.bits .f32 = 32 ∨ (Rect.block (s := S1024x384) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x384.size a ≤ S1024x384.size a
  hwx1_1 : ∀ i : grid1.Coords, EltTy.bits .f32 = 32 ∨ (Rect.block (s := S1024x384) S1024x384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128x384.size a ≤ S768x384x384.size a
  hwx1_2 : ∀ i : grid1.Coords, EltTy.bits .bf16 = 32 ∨ (Rect.block (s := S768x384x384) S128x128x384.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x768.size a
  hwx1_3 : ∀ i : grid1.Coords, EltTy.bits .f32 = 32 ∨ (Rect.block (s := S1x768) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S1024x768.size a
  hwx1_4 : ∀ i : grid1.Coords, EltTy.bits .f32 = 32 ∨ (Rect.block (s := S1024x768) S1024x128.size (cc1_transform_4 i) (hinb1_4 i)).WholeWords (EltTy.packing .f32)

variable [Facts₀]

def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S64x49152_S128x49152_S64x128_1_1_0_0_n_n : DotDims S64x49152 S128x49152 S64x128 where
  lhsContracting := [1]
  rhsContracting := [1]
  lhsNonContracting := [0]
  rhsNonContracting := [0]
  lhsBatch := []
  rhsBatch := []
  wf := dot_S64x49152_S128x49152_S64x128_1_1_0_0_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x128x384.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1024x384 : Shape := ⟨2, ![1024, 384]⟩
abbrev S768x768 : Shape := ⟨2, ![768, 768]⟩
abbrev S768 : Shape := ⟨1, ![768]⟩
abbrev S768x147456 : Shape := ⟨2, ![768, 147456]⟩
abbrev S1024x768 : Shape := ⟨2, ![1024, 768]⟩
abbrev S1x768 : Shape := ⟨2, ![1, 768]⟩
abbrev S1024x384x1 : Shape := ⟨3, ![1024, 384, 1]⟩
abbrev S1024x1x384 : Shape := ⟨3, ![1024, 1, 384]⟩
abbrev S1024x384x384 : Shape := ⟨3, ![1024, 384, 384]⟩
abbrev S1024x147456 : Shape := ⟨2, ![1024, 147456]⟩
abbrev S147456x768 : Shape := ⟨2, ![147456, 768]⟩
abbrev S1024x1536 : Shape := ⟨2, ![1024, 1536]⟩

abbrev nBuf : Space → Nat
  | .hbm => 24
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S768x768, .f32⟩
  | .hbm, ⟨3, _⟩ => ⟨S768, .f32⟩
  | .hbm, ⟨4, _⟩ => ⟨S768x147456, .f32⟩
  | .hbm, ⟨5, _⟩ => ⟨S768, .f32⟩
  | .hbm, ⟨6, _⟩ => ⟨S1024x768, .f32⟩
  | .hbm, ⟨7, _⟩ => ⟨S768x768, .f32⟩
  | .hbm, ⟨8, _⟩ => ⟨S1024x768, .f32⟩
  | .hbm, ⟨9, _⟩ => ⟨S1x768, .f32⟩
  | .hbm, ⟨10, _⟩ => ⟨S1024x768, .f32⟩
  | .hbm, ⟨11, _⟩ => ⟨S1024x768, .f32⟩
  | .hbm, ⟨12, _⟩ => ⟨S1024x384x1, .f32⟩
  | .hbm, ⟨13, _⟩ => ⟨S1024x1x384, .f32⟩
  | .hbm, ⟨14, _⟩ => ⟨S1024x384x384, .f32⟩
  | .hbm, ⟨15, _⟩ => ⟨S1024x384x384, .f32⟩
  | .hbm, ⟨16, _⟩ => ⟨S1024x384x384, .f32⟩
  | .hbm, ⟨17, _⟩ => ⟨S1024x147456, .f32⟩
  | .hbm, ⟨18, _⟩ => ⟨S147456x768, .f32⟩
  | .hbm, ⟨19, _⟩ => ⟨S1024x768, .f32⟩
  | .hbm, ⟨20, _⟩ => ⟨S1x768, .f32⟩
  | .hbm, ⟨21, _⟩ => ⟨S1024x768, .f32⟩
  | .hbm, ⟨22, _⟩ => ⟨S1024x768, .f32⟩
  | .hbm, ⟨23, _⟩ => ⟨S1024x1536, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  concatenates_S1024x384_S1024x384_S1024x768_d1 : Shape.Concatenates [S1024x384, S1024x384] S1024x768 1
  transposes_S768x768_S768x768_1_0 : S768x768.Transposes [1, 0] S768x768
  bcast_S768_S1x768_1 : S768.BroadcastsInDim S1x768 (![1] : Fin 1 → Fin S1x768.rank)
  bcast_S1x768_S1024x768_0_1 : S1x768.BroadcastsInDim S1024x768 (![0, 1] : Fin 2 → Fin S1024x768.rank)
  bcast_S1024x384_S1024x384x1_0_1 : S1024x384.BroadcastsInDim S1024x384x1 (![0, 1] : Fin 2 → Fin S1024x384x1.rank)
  bcast_S1024x384_S1024x1x384_0_2 : S1024x384.BroadcastsInDim S1024x1x384 (![0, 2] : Fin 2 → Fin S1024x1x384.rank)
  bcast_S1024x384x1_S1024x384x384_0_1_2 : S1024x384x1.BroadcastsInDim S1024x384x384 (![0, 1, 2] : Fin 3 → Fin S1024x384x384.rank)
  bcast_S1024x1x384_S1024x384x384_0_1_2 : S1024x1x384.BroadcastsInDim S1024x384x384 (![0, 1, 2] : Fin 3 → Fin S1024x384x384.rank)
  shapeCasts_S1024x384x384_S1024x147456 : S1024x384x384.ShapeCasts S1024x147456
  transposes_S768x147456_S147456x768_1_0 : S768x147456.Transposes [1, 0] S147456x768
  concatenates_S1024x768_S1024x768_S1024x1536_d1 : Shape.Concatenates [S1024x768, S1024x768] S1024x1536 1
  dot_S1024x768_S768x768_S1024x768_1_0_0_1_n_n_wf : DotDims.WF S1024x768 S768x768 S1024x768 [1] [0] [0] [1] [] []
  dot_S1024x147456_S147456x768_S1024x768_1_0_0_1_n_n_wf : DotDims.WF S1024x147456 S147456x768 S1024x768 [1] [0] [0] [1] [] []

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x147456_S147456x768_S1024x768_1_0_0_1_n_n : DotDims S1024x147456 S147456x768 S1024x768 where
  lhsContracting := [1]
  rhsContracting := [0]
  lhsNonContracting := [0]
  rhsNonContracting := [1]
  lhsBatch := []
  rhsBatch := []
  wf := dot_S1024x147456_S147456x768_S1024x768_1_0_0_1_n_n_wf

class Facts : Prop extends Facts₀ where

variable [Facts]
-- ==== Proof.KernelRun.lean ====
/-
  The idealized kernel's run with its RESULT named.

  The program is five stretches in a row: three host operations (the features joined side by side, the deep weight
  transposed, the deep bias as a row), the deep region, three more host operations (the wide weight as a stack of
  384 × 384 slabs, the wide bias as a row), the wide region, and the final joining of the two regions' output arrays
  side by side. Every weakly fair execution terminates with every unscoped buffer at the contents this chain of
  stretches leaves (`run_named`), so the result buffer holds the two output arrays joined (`result_eq`), each of
  them what its region's write-backs leave, and each buffer a region reads is a host operation's value of the launch
  memory (`entry_*`): no stretch writes an argument, and no region writes another region's input.
-/
import proofs.«181493_j79920751444429_2_alg».proof.Proof.KernelIdealFrame
import Idealize.ShloMosaic.Lib.StableHlo.Run
import Idealize.ShloMosaic.Lib.ValueIdx
import Idealize.ShloMosaic.Lib.Pipeline.Value
import Idealize.ShloMosaic.PureOps.Ideal

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the contents the chain of
    stretches leaves there and the six arguments as launched. -/
theorem run_named : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

/-- A stretch of host operations leaves alone every buffer none of them writes. -/
macro "untouched" : tactic => `(tactic| (
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The result buffer ends holding the deep region's output array and the wide region's output array joined along
    the columns: the deep array is untouched between its region and the end. -/
theorem result_eq (c : Dev nD) :
    W5 m ρ c (Proc.devRef .tc main_v8)
      = concatenate S1024x1536 1
          [⟨S1024x768, ((dat0 (V1 m ρ) c).arrAt 3 cfg0.N : (⟨S1024x768, .f32⟩ : BufTy).Contents (Elt F))⟩,
           ⟨S1024x768, ((dat1 (V3 m ρ) c).arrAt 4 cfg1.N : (⟨S1024x768, .f32⟩ : BufTy).Contents (Elt F))⟩]
          concatenates_S1024x768_S1024x768_S1024x1536_d1 := by
  have e3 : W4 m ρ c (Proc.devRef .tc main_v3) = (dat0 (V1 m ρ) c).arrAt 3 cfg0.N :=
    calc W4 m ρ c (Proc.devRef .tc main_v3)
      _ = W3 m ρ c (Proc.devRef .tc main_v3) := W4_of_ne m ρ c main_v3 (by decide)
      _ = W2 m ρ c (Proc.devRef .tc main_v3) :=
          StableHlo.after_of_forall_not_mem (b := Proc.devRef .tc main_v3) _ _ (List.forall_iff_forall_mem.mp (by untouched))
      _ = (dat0 (V1 m ρ) c).arrAt 3 cfg0.N := W2_arr m ρ c 3
  have e7 : W4 m ρ c (Proc.devRef .tc main_v7) = (dat1 (V3 m ρ) c).arrAt 4 cfg1.N := W4_arr m ρ c 4
  rw [← e3, ← e7]
  show StableHlo.after hostOps2 (W4 m ρ c) (Proc.devRef .tc main_v8) = _
  after_results <;> rfl

/-! ## What the regions find in the buffers they read -/

/-- The deep region finds the two feature matrices joined along the columns; -/
theorem entry_v0 (c : Dev nD) :
    V1 m ρ c main_v0
      = concatenate S1024x768 1 [⟨S1024x384, m ((c : Thread nD τ).loc main_arg0)⟩, ⟨S1024x384, m ((c : Thread nD τ).loc main_arg1)⟩]
          concatenates_S1024x384_S1024x384_S1024x768_d1 := by
  show StableHlo.after hostOps0 (W0 m ρ c) (Proc.devRef .tc main_v0) = _
  after_results <;> rfl

/-- the deep weight transposed: entry (k, n) is the weight's (n, k); -/
theorem entry_v1 (c : Dev nD) (k n : Fin 768) :
    V1 m ρ c main_v1 (ValueIdx.ix2 k n) = m ((c : Thread nD τ).loc main_arg2) (ValueIdx.ix2 n k) := by
  have e : V1 m ρ c main_v1 = transpose S768x768 [1, 0] (m ((c : Thread nD τ).loc main_arg2)) transposes_S768x768_S768x768_1_0 := by
    show StableHlo.after hostOps0 (W0 m ρ c) (Proc.devRef .tc main_v1) = _
    after_results <;> rfl
  rw [e]
  exact transpose_apply [1, 0] _ transposes_S768x768_S768x768_1_0 (ValueIdx.ix2 k n) (ValueIdx.ix2 n k) (fun b => match b with
    | ⟨0, _⟩ => rfl
    | ⟨1, _⟩ => rfl)

/-- and the deep bias as a one-row matrix. -/
theorem entry_v2 (c : Dev nD) (n : Fin 768) :
    V1 m ρ c main_v2 (ValueIdx.ix2 (0 : Fin 1) n) = m ((c : Thread nD τ).loc main_arg3) (ValueIdx.ix1 n) := by
  have e : V1 m ρ c main_v2 = shapeCast S1x768 (m ((c : Thread nD τ).loc main_arg3)) shapeCasts_S768_S1x768 := by
    show StableHlo.after hostOps0 (W0 m ρ c) (Proc.devRef .tc main_v2) = _
    after_results <;> rfl
  rw [e]
  exact shapeCast_apply _ shapeCasts_S768_S1x768 (ValueIdx.ix2 (0 : Fin 1) n) (ValueIdx.ix1 n)
    (by rewrite [Shape.rowMajor_val_one, Shape.rowMajor_val_two]; show n.val = 0 * 768 + n.val; omega)

/-- Nothing before the wide region writes an argument: the wide region finds the first feature matrix as launched; -/
theorem entry_arg0 (c : Dev nD) : V3 m ρ c main_arg0 = m ((c : Thread nD τ).loc main_arg0) :=
  calc W3 m ρ c (Proc.devRef .tc main_arg0)
    _ = W2 m ρ c (Proc.devRef .tc main_arg0) :=
        StableHlo.after_of_forall_not_mem (b := Proc.devRef .tc main_arg0) _ _ (List.forall_iff_forall_mem.mp (by untouched))
    _ = W1 m ρ c (Proc.devRef .tc main_arg0) := W2_of_ne m ρ c main_arg0 (by decide)
    _ = W0 m ρ c (Proc.devRef .tc main_arg0) :=
        StableHlo.after_of_forall_not_mem (b := Proc.devRef .tc main_arg0) _ _ (List.forall_iff_forall_mem.mp (by untouched))
    _ = m ((c : Thread nD τ).loc main_arg0) := rfl

/-- the second as launched; -/
theorem entry_arg1 (c : Dev nD) : V3 m ρ c main_arg1 = m ((c : Thread nD τ).loc main_arg1) :=
  calc W3 m ρ c (Proc.devRef .tc main_arg1)
    _ = W2 m ρ c (Proc.devRef .tc main_arg1) :=
        StableHlo.after_of_forall_not_mem (b := Proc.devRef .tc main_arg1) _ _ (List.forall_iff_forall_mem.mp (by untouched))
    _ = W1 m ρ c (Proc.devRef .tc main_arg1) := W2_of_ne m ρ c main_arg1 (by decide)
    _ = W0 m ρ c (Proc.devRef .tc main_arg1) :=
        StableHlo.after_of_forall_not_mem (b := Proc.devRef .tc main_arg1) _ _ (List.forall_iff_forall_mem.mp (by untouched))
    _ = m ((c : Thread nD τ).loc main_arg1) := rfl

/-- The wide weight and the wide bias reach the second stretch of host operations as launched. -/
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) :=
        StableHlo.after_of_forall_not_mem (b := Proc.devRef .tc main_arg4) _ _ (List.forall_iff_forall_mem.mp (by untouched))
    _ = m ((c : Thread nD τ).loc main_arg4) := rfl
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) :=
        StableHlo.after_of_forall_not_mem (b := Proc.devRef .tc main_arg5) _ _ (List.forall_iff_forall_mem.mp (by untouched))
    _ = m ((c : Thread nD τ).loc main_arg5) := rfl

/-- The wide bias as a one-row matrix. -/
theorem entry_v6 (c : Dev nD) (n : Fin 768) :
    V3 m ρ c main_v6 (ValueIdx.ix2 (0 : Fin 1) n) = m ((c : Thread nD τ).loc main_arg5) (ValueIdx.ix1 n) := by
  have e : V3 m ρ c main_v6 = shapeCast S1x768 (W2 m ρ c (Proc.devRef .tc main_arg5)) shapeCasts_S768_S1x768 := by
    show StableHlo.after hostOps1 (W2 m ρ c) (Proc.devRef .tc main_v6) = _
    after_results <;> rfl
  rw [e, W2_arg5]
  exact shapeCast_apply _ shapeCasts_S768_S1x768 (ValueIdx.ix2 (0 : Fin 1) n) (ValueIdx.ix1 n)
    (by rewrite [Shape.rowMajor_val_one, Shape.rowMajor_val_two]; show n.val = 0 * 768 + n.val; omega)

end Cert.KernelIdeal.RunValue

namespace Cert.KernelIdeal.RunValue

open Cert.KernelIdeal Cert.KernelIdeal.Gen Cert.KernelIdeal.GenP
open Idealize.ShloMosaic Idealize.ShloMosaic.TcCoe Idealize.SL.Sem

/-- On the extended reals a change of float format is the identity, so the wide region finds the wide weight as a
    stack of 768 slabs of 384 × 384: slab n, entry (i, j), is the weight's (n, i · 384 + j). -/
theorem entry_v5 (m : (ℓ : Loc nD τ sig) → Buf (Elt Ideal) ℓ) (ρ : Dev nD → PrngReg) (c : Dev nD) (n : Fin 768) (i j : Fin 384) :
    V3 m ρ c main_v5 (ValueIdx.ix3 n i j)
      = m ((c : Thread nD τ).loc main_arg4) (ValueIdx.ix2 n ⟨i.val * 384 + j.val, by have := i.isLt; have := j.isLt; omega⟩) := by
  have e : V3 m ρ c main_v5
      = shapeCast S768x384x384
          (((truncf (F := Ideal) .bf16 · bitsLt_bf16_f32) : (⟨S768x147456, .f32⟩ : BufTy).Contents (Elt Ideal) → (⟨S768x147456, .bf16⟩ : BufTy).Contents (Elt Ideal))
            (W2 m ρ c (Proc.devRef .tc main_arg4)))
          shapeCasts_S768x147456_S768x384x384 := by
    show StableHlo.after hostOps1 (W2 m ρ c) (Proc.devRef .tc main_v5) = _
    after_results <;> rfl
  rw [e, W2_arg4]
  refine (shapeCast_apply _ shapeCasts_S768x147456_S768x384x384 (ValueIdx.ix3 n i j)
    (ValueIdx.ix2 n ⟨i.val * 384 + j.val, by have := i.isLt; have := j.isLt; omega⟩) ?_).trans rfl
  rewrite [Shape.rowMajor_val_two, Shape.rowMajor_val_three]
  show n.val * 147456 + (i.val * 384 + j.val) = (n.val * 384 + i.val) * 384 + j.val
  omega

end Cert.KernelIdeal.RunValue

end
-- ==== Proof.Spec.lean ====
/-
  What the program computes, index by index, on the extended reals.

  The result is two [1024, 768] halves laid side by side.
  * The deep half: row `b` of the concatenated features `x` ([1024, 768]) against row `n` of the weight
    `w` ([768, 768]), plus the bias:  `deep x w β (b, n) = (∑ k < 768, x(b,k) · w(n,k)) + β(n)`.
  * The wide half: the flattened outer product of the two feature rows against row `n` of the big weight
    ([768, 147456]), plus the bias:
      `wide hs ht w β (b, n) = (∑ K < 147456, (hs(b, K / 384) · ht(b, K % 384)) · w(n, K)) + β(n)`.
  Both are stated over literal shapes, with indices built from coordinates.
-/
import Idealize.ShloMosaic.PureOps.Ideal
import Idealize.ShloMosaic.Lib.ValueIdx

noncomputable section

namespace Cert.Spec

open Idealize.ShloMosaic Idealize.ShloMosaic.ValueIdx

/-- The deep half at `(b, n)`: the contraction of row `b` of `x` with row `n` of `w` over the 768 features, plus `β n`. -/
def deep (x : (⟨2, ![1024, 768]⟩ : Shape).Idx → EReal) (w : (⟨2, ![768, 768]⟩ : Shape).Idx → EReal)
    (β : (⟨1, ![768]⟩ : Shape).Idx → EReal) : (⟨2, ![1024, 768]⟩ : Shape).Idx → EReal :=
  fun i => (∑ k : Fin 768, x (ix2 (i 0) k) * w (ix2 (i 1) k)) + β (ix1 (i 1))

/-- Position `K` of the flattened 384 × 384 outer product: its row coordinate `K / 384` … -/
def hi (K : Fin 147456) : Fin 384 := ⟨K.val / 384, by have := K.isLt; omega⟩
/-- … and its column coordinate `K % 384`. -/
def lo (K : Fin 147456) : Fin 384 := ⟨K.val % 384, Nat.mod_lt _ (by decide)⟩

/-- The wide half at `(b, n)`: the flattened outer product `hs(b, ·) ⊗ ht(b, ·)` contracted with row `n` of `w`
    over its 147456 positions, plus `β n`. -/
def wide (hs ht : (⟨2, ![1024, 384]⟩ : Shape).Idx → EReal) (w : (⟨2, ![768, 147456]⟩ : Shape).Idx → EReal)
    (β : (⟨1, ![768]⟩ : Shape).Idx → EReal) : (⟨2, ![1024, 768]⟩ : Shape).Idx → EReal :=
  fun i => (∑ K : Fin 147456, (hs (ix2 (i 0) (hi K)) * ht (ix2 (i 0) (lo K))) * w (ix2 (i 1) K)) + β (ix1 (i 1))

end Cert.Spec

end
-- ==== Proof.DeepValue.lean ====
/-
  The deep half, on the kernel's side.

  The first of the program's two regions computes a [1024, 768] array in two row blocks of 512 rows. At each
  of its two grid points the body reads a [512, 768] block of the features, the whole [768, 768] weight (which
  arrives already transposed) and the one-row bias, and stores
      block · weight + bias
  where the product is a contraction over the 768 shared positions into a zero accumulator and the bias row
  is repeated down the 512 rows. On the extended reals the rounding of the two operands to a shorter float
  format changes nothing, so the stored value at `(p, q)` is
      (∑ k < 768, block(p, k) · weight(k, q)) + bias(q).

  Read through the windows: row `p` of the block at point `t` is row `512 t + p` of the feature array, and
  the weight and bias blocks are their whole arrays. Writing `x` for the features, `w` for the untransposed
  weight (`weight(k, q) = w(q, k)`) and `β` for the bias, point `t` therefore writes back rows
  `512 t … 512 t + 511` of
      deep x w β (r, q) = (∑ k < 768, x(r, k) · w(q, k)) + β(q),
  term for term, with no rearrangement of the sum. The two row blocks tile the array (row `r` belongs to
  point `r / 512`), so after the region's write-backs the array is `deep x w β`.

  Nothing here needs the inputs to be finite.
-/
import proofs.«181493_j79920751444429_2_alg».proof.Proof.KernelIdealFrame
import proofs.«181493_j79920751444429_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.DeepValue

open Cert.KernelIdeal Cert.KernelIdeal.Gen Cert.KernelIdeal.GenP Idealize.ShloMosaic Idealize.ShloMosaic.ValueIdx
open Idealize.ShloMosaic.Pipeline Idealize.ShloMosaic.TcCoe

/-- The contraction's index arithmetic, read coordinate by coordinate: at output index `j` and contraction
    position `s` the left operand is read at `(j 0, s)` … -/
theorem lhs_row (j : S512x768.Idx) (s : dot_S512x768_S768x768_S512x768_1_0_0_1_n_n.contr.Idx) :
    (dot_S512x768_S768x768_S512x768_1_0_0_1_n_n.lhsIdx j s 0).val = (j 0).val := by
  unfold DotDims.lhsIdx
  rw [dif_neg (show ¬(0 : Fin S512x768.rank) ∈ dot_S512x768_S768x768_S512x768_1_0_0_1_n_n.lhsBatch by decide),
    dif_pos (show (0 : Fin S512x768.rank) ∈ dot_S512x768_S768x768_S512x768_1_0_0_1_n_n.lhsNonContracting by decide)]
  rfl
theorem lhs_col (j : S512x768.Idx) (s : dot_S512x768_S768x768_S512x768_1_0_0_1_n_n.contr.Idx) :
    (dot_S512x768_S768x768_S512x768_1_0_0_1_n_n.lhsIdx j s 1).val = (s ⟨0, by decide⟩).val :=
  dot_S512x768_S768x768_S512x768_1_0_0_1_n_n.lhsIdx_val_of_single rfl j s
/-- … and the right operand at `(s, j 1)`. -/
theorem rhs_row (j : S512x768.Idx) (s : dot_S512x768_S768x768_S512x768_1_0_0_1_n_n.contr.Idx) :
    (dot_S512x768_S768x768_S512x768_1_0_0_1_n_n.rhsIdx j s 0).val = (s ⟨0, by decide⟩).val :=
  dot_S512x768_S768x768_S512x768_1_0_0_1_n_n.rhsIdx_val_of_single rfl j s
theorem rhs_col (j : S512x768.Idx) (s : dot_S512x768_S768x768_S512x768_1_0_0_1_n_n.contr.Idx) :
    (dot_S512x768_S768x768_S512x768_1_0_0_1_n_n.rhsIdx j s 1).val = (j 1).val := by
  unfold DotDims.rhsIdx
  rw [dif_neg (show ¬(1 : Fin S768x768.rank) ∈ dot_S512x768_S768x768_S512x768_1_0_0_1_n_n.rhsBatch by decide),
    dif_pos (show (1 : Fin S768x768.rank) ∈ dot_S512x768_S768x768_S512x768_1_0_0_1_n_n.rhsNonContracting by decide)]
  rfl

/-- The product of a [512, 768] block with a [768, 768] block into a zero accumulator, at `(p, q)`: the sum
    over the 768 contracted positions of the products of row `p` of the left and column `q` of the right. -/
theorem matmul_at (a : FVec Ideal S512x768 .bf16) (b : FVec Ideal S768x768 .bf16) (p : Fin 512) (q : Fin 768) :
    matmul dot_S512x768_S768x768_S512x768_1_0_0_1_n_n none a b (constant S512x768 .f32 0x00000000#32) (ix2 p q)
      = ∑ k : Fin 768, a (ix2 p k) * b (ix2 k q) := by
  refine (Ideal.matmul_constant_zero_apply dot_S512x768_S768x768_S512x768_1_0_0_1_n_n none a b (ix2 p q)).trans ?_
  rw [← Equiv.sum_comp (contrEquiv1 dot_S512x768_S768x768_S512x768_1_0_0_1_n_n 768 rfl rfl).symm]
  refine Finset.sum_congr rfl fun k _ => ?_
  have hk := contrEquiv1_symm_val dot_S512x768_S768x768_S512x768_1_0_0_1_n_n 768 rfl rfl k
  have el : dot_S512x768_S768x768_S512x768_1_0_0_1_n_n.lhsIdx (ix2 p q) ((contrEquiv1 dot_S512x768_S768x768_S512x768_1_0_0_1_n_n 768 rfl rfl).symm k) = ix2 p k :=
    funext fun ax => Fin.ext (by
      match ax with
      | ⟨0, _⟩ => exact lhs_row _ _
      | ⟨1, _⟩ => exact (lhs_col _ _).trans hk)
  have er : dot_S512x768_S768x768_S512x768_1_0_0_1_n_n.rhsIdx (ix2 p q) ((contrEquiv1 dot_S512x768_S768x768_S512x768_1_0_0_1_n_n 768 rfl rfl).symm k) = ix2 k q :=
    funext fun ax => Fin.ext (by
      match ax with
      | ⟨0, _⟩ => exact (rhs_row _ _).trans hk
      | ⟨1, _⟩ => exact rhs_col _ _)
  rw [el, er]

/-- The value the body stores, entry by entry. The body rounds its two matrix operands to bf16 (no change on the
    extended reals), multiplies them into a zero accumulator and adds the one-row bias broadcast down the rows:
    at `(p, q)` that is the contraction of row `p` of the first block with column `q` of the second, plus the
    bias at `q`. -/
theorem payload_apply (x0 : Vec Ideal S512x768 .f32) (x1 : Vec Ideal S768x768 .f32) (x2 : Vec Ideal S1x768 .f32)
    (p : Fin 512) (q : Fin 768) :
    k0_pay1 (F := Ideal) x0 x1 x2 (ix2 p q) = (∑ k : Fin 768, x0 (ix2 p k) * x1 (ix2 k q)) + x2 (ix2 (0 : Fin 1) q) := by
  unfold k0_pay1
  rw [shapeCast_self, shapeCast_self, shapeCast_self, addf_apply, broadcastTo_1b_ab_apply, matmul_at]
  rfl

/-! ## From the blocks to the array -/

/-- The zero offsets of a whole-buffer access, as a constant function. -/
theorem hz : (![0, 0] : Fin 2 → Nat) = fun _ => 0 := funext fun a => by fin_cases a <;> rfl

/-- The block index of each window at each of the two grid points: the row-blocked operand and the result sit at
    row block `t`, column block 0; the weight and the bias are whole, at block (0, 0). -/
theorem block_indices : ∀ t : Fin cfg0.N, t.val < 2
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b)) (c : Dev nD)

/-- Row `p` of the first operand's block at point `t` is row `512 t + p` of its array. -/
theorem rows_block (t : Fin cfg0.N) (p : Fin 512) (k : Fin 768) (r : Fin 1024) (hr : r.val = 512 * t.val + p.val) :
    iblk0 V c 0 t (ix2 p k) = V c main_v0 (ix2 r k) := by
  obtain ⟨-, e0, e1, -⟩ := block_indices t
  show V c main_v0 (((cfg0.win 0).blk t).view.emb (ix2 p k)) = V c main_v0 (ix2 r k)
  refine congrArg (V c main_v0) (funext fun a => Fin.ext ?_)
  match a with
  | ⟨0, _⟩ => show win0_0.index t (0 : Fin 2) * 512 + 1 * p.val = r.val; rw [e0, hr]; omega
  | ⟨1, _⟩ => show win0_0.index t (1 : Fin 2) * 768 + 1 * k.val = k.val; rw [e1]; omega

/-- The second operand's block is its whole array, at every point. -/
theorem weight_block (t : Fin cfg0.N) (k q : Fin 768) :
    iblk0 V c 1 t (ix2 k q) = V c main_v1 (ix2 k q) := by
  obtain ⟨-, -, -, e0, e1, -⟩ := block_indices t
  show V c main_v1 (((cfg0.win 1).blk t).view.emb (ix2 k q)) = V c main_v1 (ix2 k q)
  refine congrArg (V c main_v1) (funext fun a => Fin.ext ?_)
  match a with
  | ⟨0, _⟩ => show win0_1.index t (0 : Fin 2) * 768 + 1 * k.val = k.val; rw [e0]; omega
  | ⟨1, _⟩ => show win0_1.index t (1 : Fin 2) * 768 + 1 * q.val = q.val; rw [e1]; omega

/-- So is the bias row's. -/
theorem bias_block (t : Fin cfg0.N) (q : Fin 768) :
    iblk0 V c 2 t (ix2 (0 : Fin 1) q) = V c main_v2 (ix2 (0 : Fin 1) q) := by
  obtain ⟨-, -, -, -, -, e0, e1, -⟩ := block_indices t
  show V c main_v2 (((cfg0.win 2).blk t).view.emb (ix2 (0 : Fin 1) q)) = V c main_v2 (ix2 (0 : Fin 1) q)
  refine congrArg (V c main_v2) (funext fun a => Fin.ext ?_)
  match a with
  | ⟨0, _⟩ => show win0_2.index t (0 : Fin 2) * 1 + 1 * 0 = 0; rw [e0]
  | ⟨1, _⟩ => show win0_2.index t (1 : Fin 2) * 768 + 1 * q.val = q.val; rw [e1]; omega

/-- Membership in the block point `t` writes, coordinate by coordinate: from the block's first row (column) up to,
    not including, the next block's. -/
theorem mem_block (t : Fin cfg0.N) (i : S1024x768.Idx) :
    i ∈ ((cfg0.win 3).blk t).view.set ↔ ∀ a : Fin 2, win0_3.index t a * S512x768.size a ≤ (i a).val ∧ (i a).val < win0_3.index t a * S512x768.size a + S512x768.size a := by
  show i ∈ ((View.whole main_v3).slice (win0_3.rect t)).set ↔ _
  rw [View.set_slice_whole, Rect.mem_set_unit]
  exact Iff.rfl

/-- The two row blocks tile the result: row `r` lies in the block of point `r / 512`, and every point writes back. -/
theorem blocks_cover (i : S1024x768.Idx) :
    ∃ t : Fin cfg0.N, (cfg0.win 3).flush t = true ∧ i ∈ ((cfg0.win 3).blk t).view.set := by
  have hi0 : (i 0).val < 1024 := (i 0).isLt
  have hi1 : (i 1).val < 768 := (i 1).isLt
  have hN : cfg0.N = 2 := N_0
  have ht : (i 0).val / 512 < cfg0.N := by rw [hN]; omega
  obtain ⟨-, -, -, -, -, -, -, e0, e1⟩ := block_indices ⟨(i 0).val / 512, ht⟩
  refine ⟨⟨(i 0).val / 512, ht⟩, flush0_3 _, ?_⟩
  rw [mem_block]
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_3.index ⟨(i 0).val / 512, ht⟩ (1 : Fin 2) * 768 ≤ (i 1).val ∧ (i 1).val < win0_3.index ⟨(i 0).val / 512, ht⟩ (1 : Fin 2) * 768 + 768
    rw [e1]
    omega

/-- One entry of one block. If row `p` of the first block is row `r` of `x`, column `q` of the second block is
    row `q` of `w` (the weight arrives transposed) and the bias block at `q` is `β q`, the stored value at `(p, q)`
    is the deep half at `(r, q)`: the same 768 products in the same order, plus the same bias. -/
theorem block_value (x0 : Vec Ideal S512x768 .f32) (x1 : Vec Ideal S768x768 .f32) (x2 : Vec Ideal S1x768 .f32)
    (x : (⟨2, ![1024, 768]⟩ : Shape).Idx → EReal) (w : (⟨2, ![768, 768]⟩ : Shape).Idx → EReal) (β : (⟨1, ![768]⟩ : Shape).Idx → EReal)
    (p : Fin 512) (q : Fin 768) (r : Fin 1024)
    (h0 : ∀ k : Fin 768, x0 (ix2 p k) = x (ix2 r k))
    (h1 : ∀ k : Fin 768, x1 (ix2 k q) = w (ix2 q k))
    (h2 : x2 (ix2 (0 : Fin 1) q) = β (ix1 q)) :
    k0_pay1 (F := Ideal) x0 x1 x2 (ix2 p q) = Cert.Spec.deep x w β (ix2 r q) := by
  rw [payload_apply, h2]
  show _ = (∑ k : Fin 768, x (ix2 r k) * w (ix2 q k)) + β (ix1 q)
  refine congrArg (· + β (ix1 q)) (Finset.sum_congr rfl fun k _ => ?_)
  rw [h0, h1]

section Array

variable (x : (⟨2, ![1024, 768]⟩ : Shape).Idx → EReal) (w : (⟨2, ![768, 768]⟩ : Shape).Idx → EReal) (β : (⟨1, ![768]⟩ : Shape).Idx → EReal)

/-- The rows a grid point writes back: point `t` writes rows `512 t … 512 t + 511` of the deep half, all 768
    columns of each. -/
theorem flushed_eq
    (hx : ∀ (b : Fin 1024) (k : Fin 768), V c main_v0 (ix2 b k) = x (ix2 b k))
    (hw : ∀ (k n : Fin 768), V c main_v1 (ix2 k n) = w (ix2 n k))
    (hβ : ∀ n : Fin 768, V c main_v2 (ix2 (0 : Fin 1) n) = β (ix1 n)) (t : Fin cfg0.N) :
    (dat0 (F := Ideal) V c).flushed 3 t = ((cfg0.win 3).blk t).view.read (Elt Ideal) (Cert.Spec.deep x w β) := by
  show (cfg0.win 3).cut (grid0.coords t) ((dat0 V c).after 3 t) = _
  rw [after0_3]
  unfold out0_3
  rw [View.canon_unit_zero hz]
  simp only [View.ld_unit_zero (S := S512x768) hz, View.ld_unit_zero (S := S768x768) hz, View.ld_unit_zero (S := S1x768) hz]
  obtain ⟨ht, -, -, -, -, -, -, e0, e1⟩ := block_indices t
  funext j
  have hj0 : (j 0).val < 512 := (j 0).isLt
  have hj1 : (j 1).val < 768 := (j 1).isLt
  have hin : (cfg0.win 3).xinj (grid0.coords t) j = ix2 (⟨(j 0).val, hj0⟩ : Fin 512) (⟨(j 1).val, hj1⟩ : Fin 768) :=
    funext fun a => Fin.ext (by
      match a with
      | ⟨0, _⟩ => rfl
      | ⟨1, _⟩ => rfl)
  have hout : ((cfg0.win 3).blk t).view.emb j = ix2 (⟨512 * t.val + (j 0).val, by omega⟩ : Fin 1024) (⟨(j 1).val, hj1⟩ : Fin 768) :=
    funext fun a => Fin.ext (by
      match a with
      | ⟨0, _⟩ => show win0_3.index t (0 : Fin 2) * 512 + 1 * (j 0).val = 512 * t.val + (j 0).val; rw [e0]; omega
      | ⟨1, _⟩ => show win0_3.index t (1 : Fin 2) * 768 + 1 * (j 1).val = (j 1).val; rw [e1]; omega)
  show k0_pay1 (F := Ideal) (iblk0 V c 0 t) (iblk0 V c 1 t) (iblk0 V c 2 t) ((cfg0.win 3).xinj (grid0.coords t) j)
    = Cert.Spec.deep x w β (((cfg0.win 3).blk t).view.emb j)
  rw [hin, hout]
  refine block_value (iblk0 V c 0 t) (iblk0 V c 1 t) (iblk0 V c 2 t) x w β ⟨(j 0).val, hj0⟩ ⟨(j 1).val, hj1⟩
    ⟨512 * t.val + (j 0).val, by omega⟩ (fun k => ?_) (fun k => ?_) ?_
  · exact (rows_block V c t ⟨(j 0).val, hj0⟩ k ⟨512 * t.val + (j 0).val, by omega⟩ rfl).trans (hx _ k)
  · exact (weight_block V c t k ⟨(j 1).val, hj1⟩).trans (hw k _)
  · exact (bias_block V c t ⟨(j 1).val, hj1⟩).trans (hβ _)

/-- After both write-backs the result array is the deep half: each point writes its block of rows of it, and the
    two blocks tile the array. -/
theorem deep_array
    (hx : ∀ (b : Fin 1024) (k : Fin 768), V c main_v0 (ix2 b k) = x (ix2 b k))
    (hw : ∀ (k n : Fin 768), V c main_v1 (ix2 k n) = w (ix2 n k))
    (hβ : ∀ n : Fin 768, V c main_v2 (ix2 (0 : Fin 1) n) = β (ix1 n)) :
    (dat0 (F := Ideal) V c).arrAt 3 cfg0.N = Cert.Spec.deep x w β :=
  (dat0 (F := Ideal) V c).arrAt_eq_of_cover 3 (Cert.Spec.deep x w β) (fun t _ => flushed_eq V c x w β hx hw hβ t) blocks_cover

end Array

end Cert.KernelIdeal.DeepValue

end
-- ==== Proof.WideStep.lean ====
/-
  One grid point of the wide region, as a function on the extended reals.

  A point holds a [1024, 128] slab `x0` of the first feature matrix (128 of its 384 columns), the whole second feature
  matrix `x1` ([1024, 384]) and a weight tile `x2` ([128, 128, 384]: 128 output columns against the slab's 128 × 384
  outer-product positions). Position κ < 49152 of the flattened outer product is the pair (κ / 384, κ % 384).
  `step` adds to entry (b, n') of the [1024, 128] output tile the contraction over those positions of
  `(x0(b, κ / 384) · x1(b, κ % 384)) · x2(n', κ / 384, κ % 384)`.
-/
import proofs.«181493_j79920751444429_2_alg».proof.KernelIdeal
import Idealize.ShloMosaic.PureOps.Ideal
import Idealize.ShloMosaic.Lib.ValueIdx

noncomputable section

namespace Cert.KernelIdeal.WideStep

open Cert.KernelIdeal Idealize.ShloMosaic Idealize.ShloMosaic.ValueIdx

/-- The row coordinate of position κ of a flattened 128 × 384 slab … -/
def khi (κ : Fin 49152) : Fin 128 := ⟨κ.val / 384, by have := κ.isLt; omega⟩
/-- … and its column coordinate. -/
def klo (κ : Fin 49152) : Fin 384 := ⟨κ.val % 384, Nat.mod_lt _ (by decide)⟩

/-- One grid point's accumulation into the output tile. -/
def step (x0 : Vec Ideal S1024x128 .f32) (x1 : Vec Ideal S1024x384 .f32) (x2 : Vec Ideal S128x128x384 .bf16)
    (acc : Vec Ideal S1024x128 .f32) : Vec Ideal S1024x128 .f32 :=
  fun y => acc y + ∑ κ : Fin 49152, (x0 (ix2 (y 0) (khi κ)) * x1 (ix2 (y 0) (klo κ))) * x2 (ix3 (y 1) (khi κ) (klo κ))

/-- The zero tile the first point of a reduction run stores. -/
def zeroTile : Vec Ideal S1024x128 .f32 := fun _ => Ideal.ofBits .f32 0x00000000#32

end Cert.KernelIdeal.WideStep

end
-- ==== Proof.LibMatmulNT.lean ====
/-
  A rank-2 by rank-2 matrix product against a TRANSPOSED right operand, read at an index, at the ideal instance.

  For dimension numbers that contract the left operand's axis 1 with the right operand's axis 1 (a[M, K] against
  b[N, K], the product a · bᵀ with no transpose operation) and have no batch axis, the entry (r, c) of the product
  into a zero accumulator is the plain sum over k of a(r, k) * b(c, k) on the extended reals. The two side facts
  about the free axes (hl0, hr0) are decided once per literal record of dimension numbers.
-/
import Idealize.ShloMosaic.PureOps.Ideal.Laws
import Idealize.ShloMosaic.Lib.ValueIdx

noncomputable section

namespace Idealize.ShloMosaic.MatmulNT

open Idealize.ShloMosaic Idealize.ShloMosaic.ValueIdx

variable {M K N : Nat} {φ₁ φ₂ : FTy}

/-- The operand indices of such a product at output index `i` and contraction position `k` are (i 0, k) and (i 1, k). -/
theorem operand_indices
    (d : DotDims (⟨2, ![M, K]⟩ : Shape) (⟨2, ![N, K]⟩ : Shape) (⟨2, ![M, N]⟩ : Shape))
    (hcl : d.lhsContracting = [1]) (hcr : d.rhsContracting = [1])
    (hrk : d.contr.rank = 1) (hs : d.contr.size ⟨0, by omega⟩ = K)
    (hl0 : ∀ i q, (d.lhsIdx i q 0).val = (i 0).val) (hr0 : ∀ i q, (d.rhsIdx i q 0).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 (i 1) k := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact hr0 _ _
    | ⟨1, _⟩ => exact (d.rhsIdx_val_of_single hcr _ _).trans hk

/-- A kernel's product a · bᵀ into the zero accumulator, entry by entry. -/
theorem matmul_zero_apply
    (d : DotDims (⟨2, ![M, K]⟩ : Shape) (⟨2, ![N, K]⟩ : Shape) (⟨2, ![M, N]⟩ : Shape)) (prec : Option ContractPrecision)
    (hcl : d.lhsContracting = [1]) (hcr : d.rhsContracting = [1])
    (hrk : d.contr.rank = 1) (hs : d.contr.size ⟨0, by omega⟩ = K)
    (hl0 : ∀ i q, (d.lhsIdx i q 0).val = (i 0).val) (hr0 : ∀ i q, (d.rhsIdx i q 0).val = (i 1).val)
    (a : FVec Ideal (⟨2, ![M, K]⟩ : Shape) φ₁) (b : FVec Ideal (⟨2, ![N, K]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 (i 1) k) := by
  rw [Ideal.matmul_constant_zero_apply, ← Equiv.sum_comp (contrEquiv1 d K hrk hs).symm]
  refine Finset.sum_congr rfl fun k _ => ?_
  obtain ⟨el, er⟩ := operand_indices d hcl hcr hrk hs hl0 hr0 i k
  rw [el, er]
  rfl

end Idealize.ShloMosaic.MatmulNT

end
-- ==== Proof.WidePayload.lean ====
/-
  The wide body's three stored values, read at an index on the extended reals.

  One trip takes 64 batch rows. From a [64, 128] slab a of one feature matrix and a [64, 384] slab c of the
  other it forms the outer product a(p, i) · c(p, j) as a [64, 128, 384] array and flattens it row-major to
  [64, 49152]: position κ = i · 384 + j, so i = κ / 384 and j = κ % 384. The weight tile [128, 128, 384] is
  flattened the same way to [128, 49152]. Contracting position κ of both, into a zero accumulator, gives for
  batch row p and output column q the sum over κ of (a(p, κ / 384) · c(p, κ % 384)) · w(q, κ / 384, κ % 384);
  the trip adds this to what the output rows held. The change of float format on a and c is the identity here.

  The other two stored values are the all-zero array the output starts from, and the output with the bias row
  added to every row.
-/
import proofs.«181493_j79920751444429_2_alg».proof.Proof.Gen.KernelIdeal.Skeleton
import proofs.«181493_j79920751444429_2_alg».proof.Proof.LibMatmulNT
import proofs.«181493_j79920751444429_2_alg».proof.Proof.WideStep
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.WidePayload

open Cert.KernelIdeal Cert.KernelIdeal.Gen Cert.KernelIdeal.WideStep Idealize.ShloMosaic Idealize.ShloMosaic.ValueIdx

/-! Flattened position κ of the 128 × 384 outer product stands for row khi κ = κ / 384 and column klo κ = κ % 384. -/

/-! ## Each change of layout, read at an index

A reshape reads the operand at the index with the same row-major position; a broadcast reads the operand at
the same coordinates, with 0 on the operand's axes of extent one. -/

section Layout
variable {α : Type}

/-- [64, 128] viewed as [64, 128, 1]: entry (p, i, 0) is entry (p, i). -/
theorem col_cast (x : S64x128.Idx → α) (h : S64x128.ShapeCasts S64x128x1) (p : Fin 64) (i : Fin 128) :
    shapeCast S64x128x1 x h (ix3 p i (0 : Fin 1)) = x (ix2 p i) := by
  refine shapeCast_apply x h _ _ ?_
  rw [Shape.rowMajor_val_two, Shape.rowMajor_val_three]
  show p.val * 128 + i.val = (p.val * 128 + i.val) * 1 + 0
  omega

/-- [64, 384] viewed as [64, 1, 384]: entry (p, 0, j) is entry (p, j). -/
theorem row_cast (x : S64x384.Idx → α) (h : S64x384.ShapeCasts S64x1x384) (p : Fin 64) (j : Fin 384) :
    shapeCast S64x1x384 x h (ix3 p (0 : Fin 1) j) = x (ix2 p j) := by
  refine shapeCast_apply x h _ _ ?_
  rw [Shape.rowMajor_val_two, Shape.rowMajor_val_three]
  show p.val * 384 + j.val = (p.val * 1 + 0) * 384 + j.val
  omega

/-- [64, 128, 1] repeated along its last axis: entry (p, i, j) is entry (p, i, 0). -/
theorem col_bcast (x : S64x128x1.Idx → α) (h : S64x128x1.Broadcasts S64x128x384) (p : Fin 64) (i : Fin 128) (j : Fin 384) :
    broadcastTo S64x128x384 x h (ix3 p i j) = x (ix3 p i (0 : Fin 1)) := by
  refine broadcastTo_apply x h _ _ fun a => ?_
  match a with
  | ⟨0, _⟩ => show p.val = if (64 : Nat) = 1 then 0 else p.val; rw [if_neg (by decide)]
  | ⟨1, _⟩ => show i.val = if (128 : Nat) = 1 then 0 else i.val; rw [if_neg (by decide)]
  | ⟨2, _⟩ => show 0 = if (1 : Nat) = 1 then 0 else j.val; rw [if_pos rfl]

/-- [64, 1, 384] repeated along its middle axis: entry (p, i, j) is entry (p, 0, j). -/
theorem row_bcast (x : S64x1x384.Idx → α) (h : S64x1x384.Broadcasts S64x128x384) (p : Fin 64) (i : Fin 128) (j : Fin 384) :
    broadcastTo S64x128x384 x h (ix3 p i j) = x (ix3 p (0 : Fin 1) j) := by
  refine broadcastTo_apply x h _ _ fun a => ?_
  match a with
  | ⟨0, _⟩ => show p.val = if (64 : Nat) = 1 then 0 else p.val; rw [if_neg (by decide)]
  | ⟨1, _⟩ => show 0 = if (1 : Nat) = 1 then 0 else i.val; rw [if_pos rfl]
  | ⟨2, _⟩ => show j.val = if (384 : Nat) = 1 then 0 else j.val; rw [if_neg (by decide)]

/-- [64, 128, 384] flattened to [64, 49152]: entry (p, κ) is entry (p, κ / 384, κ % 384). -/
theorem flat_cast (x : S64x128x384.Idx → α) (h : S64x128x384.ShapeCasts S64x49152) (p : Fin 64) (κ : Fin 49152) :
    shapeCast S64x49152 x h (ix2 p κ) = x (ix3 p (khi κ) (klo κ)) := by
  refine shapeCast_apply x h _ _ ?_
  rw [Shape.rowMajor_val_three, Shape.rowMajor_val_two]
  show (p.val * 128 + κ.val / 384) * 384 + κ.val % 384 = p.val * 49152 + κ.val
  omega

/-- [128, 128, 384] flattened to [128, 49152]: entry (q, κ) is entry (q, κ / 384, κ % 384). -/
theorem weight_cast (x : S128x128x384.Idx → α) (h : S128x128x384.ShapeCasts S128x49152) (q : Fin 128) (κ : Fin 49152) :
    shapeCast S128x49152 x h (ix2 q κ) = x (ix3 q (khi κ) (klo κ)) := by
  refine shapeCast_apply x h _ _ ?_
  rw [Shape.rowMajor_val_three, Shape.rowMajor_val_two]
  show (q.val * 128 + κ.val / 384) * 384 + κ.val % 384 = q.val * 49152 + κ.val
  omega

end Layout

/-- The flattened outer product at (p, κ) is a(p, κ / 384) · c(p, κ % 384). -/
theorem outer_apply (a : FVec Ideal S64x128 .bf16) (c : FVec Ideal S64x384 .bf16)
    (h1 : S64x128.ShapeCasts S64x128x1) (h2 : S64x384.ShapeCasts S64x1x384)
    (hb1 : S64x128x1.Broadcasts S64x128x384) (hb2 : S64x1x384.Broadcasts S64x128x384)
    (h3 : S64x128x384.ShapeCasts S64x49152) (p : Fin 64) (κ : Fin 49152) :
    shapeCast S64x49152 (mulf (broadcastTo S64x128x384 (shapeCast S64x128x1 a h1) hb1)
        (broadcastTo S64x128x384 (shapeCast S64x1x384 c h2) hb2)) h3 (ix2 p κ)
      = a (ix2 p (khi κ)) * c (ix2 p (klo κ)) := by
  rw [flat_cast, ValueIdx.mulf_apply, col_bcast, row_bcast, col_cast, row_cast]

/-! ## The product's dimension numbers

The product contracts axis 1 of both operands; the free axis of each is its axis 0, which carries the
output's row (left operand) and the output's column (right operand). -/

theorem lhs0 (i : S64x128.Idx) (k : dot_S64x49152_S128x49152_S64x128_1_1_0_0_n_n.contr.Idx) :
    (dot_S64x49152_S128x49152_S64x128_1_1_0_0_n_n.lhsIdx i k 0).val = (i 0).val := by
  unfold DotDims.lhsIdx
  rw [dif_neg (show ¬(0 : Fin S64x49152.rank) ∈ dot_S64x49152_S128x49152_S64x128_1_1_0_0_n_n.lhsBatch by decide), dif_pos (show (0 : Fin S64x49152.rank) ∈ dot_S64x49152_S128x49152_S64x128_1_1_0_0_n_n.lhsNonContracting by decide)]
  rfl

theorem rhs0 (i : S64x128.Idx) (k : dot_S64x49152_S128x49152_S64x128_1_1_0_0_n_n.contr.Idx) :
    (dot_S64x49152_S128x49152_S64x128_1_1_0_0_n_n.rhsIdx i k 0).val = (i 1).val := by
  unfold DotDims.rhsIdx
  rw [dif_neg (show ¬(0 : Fin S128x49152.rank) ∈ dot_S64x49152_S128x49152_S64x128_1_1_0_0_n_n.rhsBatch by decide), dif_pos (show (0 : Fin S128x49152.rank) ∈ dot_S64x49152_S128x49152_S64x128_1_1_0_0_n_n.rhsNonContracting by decide)]
  rfl

/-! ## The three stored values -/

/-- One trip's stored value at (p, q): what the output held there, plus the contraction over the 49152
    flattened positions of the outer product of the two slabs' rows p with row q of the weight tile. -/
theorem pay2_apply (v3 : Vec Ideal S128x128x384 .bf16) (v15 : Vec Ideal S64x128 .f32) (v18 : Vec Ideal S64x384 .f32) (v28 : Vec Ideal S64x128 .f32) (p : Fin 64) (q : Fin 128) :
    k1_pay2 (F := Ideal) v3 v15 v18 v28 (ix2 p q) = v28 (ix2 p q) + ∑ κ : Fin 49152, (v15 (ix2 p (khi κ)) * v18 (ix2 p (klo κ))) * v3 (ix3 q (khi κ) (klo κ)) := by
  unfold k1_pay2
  rw [ValueIdx.addf_apply, shapeCast_self v28, shapeCast_self v3]
  refine congrArg (v28 (ix2 p q) + ·) ?_
  refine (MatmulNT.matmul_zero_apply dot_S64x49152_S128x49152_S64x128_1_1_0_0_n_n none rfl rfl rfl rfl lhs0 rhs0 _ _ (ix2 p q)).trans ?_
  refine Finset.sum_congr rfl fun κ _ => ?_
  exact congrArg₂ (· * ·) (outer_apply _ _ _ _ _ _ _ p κ) (weight_cast _ _ q κ)

/-- The last stored value at (p, q): the output there plus the bias row at q. -/
theorem pay3_apply (v10 : Vec Ideal S1024x128 .f32) (v12 : Vec Ideal S1x128 .f32) (p : Fin 1024) (q : Fin 128) :
    k1_pay3 (F := Ideal) v10 v12 (ix2 p q) = v10 (ix2 p q) + v12 (ix2 (0 : Fin 1) q) := by
  unfold k1_pay3
  rw [ValueIdx.addf_apply, shapeCast_self v10, shapeCast_self v12]
  exact congrArg (v10 (ix2 p q) + ·) (broadcastTo_1b_ab_apply v12 _ p q)

/-- The first stored value is the zero word everywhere. -/
theorem pay1_apply (y : S1024x128.Idx) : k1_pay1 (F := Ideal) y = Ideal.ofBits .f32 0x00000000#32 := rfl

end Cert.KernelIdeal.WidePayload

end
-- ==== Proof.WideLoop.lean ====
/-
  The wide body's loop, read back as one function.

  The loop walks the [1024, 128] output tile in sixteen trips of 64 rows. Trip k loads rows 64·k … 64·k + 63 of the two
  feature slabs and of the tile, adds to those rows of the tile the contraction of their flattened outer products with
  the weight tile, and stores them back: ONE store per trip, through the trip's rows. No trip touches another trip's
  rows, so each trip finds in its rows what the loop found there, and the sixteen stores together are the tile's
  contents with every entry's contraction added (`WideStep.step`) — whatever was stored before the loop.
-/
import proofs.«181493_j79920751444429_2_alg».proof.Proof.Gen.KernelIdeal.Loops
import proofs.«181493_j79920751444429_2_alg».proof.Proof.WideStep
import proofs.«181493_j79920751444429_2_alg».proof.Proof.WidePayload
import Idealize.ShloMosaic.Lib.Pipeline.Value
import Idealize.ShloMosaic.Lib.Pipeline.CanonAppend
import Idealize.ShloMosaic.Lib.ValueIdx
import Idealize.ShloMosaic.PureOps.Ideal

set_option maxRecDepth 16384

noncomputable section

namespace Cert.KernelIdeal.WideLoop

open Cert.KernelIdeal Cert.KernelIdeal.Gen Cert.KernelIdeal.WideStep
open Idealize.ShloMosaic Idealize.ShloMosaic.TcCoe Idealize.ShloMosaic.ValueIdx Idealize.SL.Sem

open Cert.KernelIdeal.WidePayload (pay2_apply)

/-- The loop makes sixteen trips. -/
theorem trips_eq : k1_t1_loop.trips = 16 := by decide +kernel

/-- Trip k works on the 64 output rows from 64·k on: -/
abbrev rows (k : Fin k1_t1_loop.trips) : Rect S1024x128 := Rect.unit (k1_off1 k) S64x128.size (Gen.k1_off1_inb k)
/-- the same rows of the second feature matrix. -/
abbrev rows' (k : Fin k1_t1_loop.trips) : Rect S1024x384 := Rect.unit (k1_off2 k) S64x384.size (Gen.k1_off2_inb k)

theorem off1_0 (k : Fin k1_t1_loop.trips) : k1_off1 k 0 = 64 * k.val := by rw [k1_off1_eq]; rfl
theorem off1_1 (k : Fin k1_t1_loop.trips) : k1_off1 k 1 = 0 := by rw [k1_off1_eq]; rfl
theorem off2_0 (k : Fin k1_t1_loop.trips) : k1_off2 k 0 = 64 * k.val := by rw [k1_off2_eq]; rfl
theorem off2_1 (k : Fin k1_t1_loop.trips) : k1_off2 k 1 = 0 := by rw [k1_off2_eq]; rfl

/-- Two indices of a rank-2 shape with the same coordinates read the same entry. -/
theorem at_eq {n0 n1 : Nat} {α : Type} (X : (⟨2, ![n0, n1]⟩ : Shape).Idx → α) (i j : (⟨2, ![n0, n1]⟩ : Shape).Idx)
    (e0 : (i 0).val = (j 0).val) (e1 : (i 1).val = (j 1).val) : X i = X j :=
  congrArg X (funext fun a => match a with
    | ⟨0, _⟩ => Fin.ext e0
    | ⟨1, _⟩ => Fin.ext e1)

section
variable (𝒱 : Variants) (c : Dev nD) (bd : Option 𝒱.V) (i : grid1.Coords) (a2 : Memref sig .tc .vmem S1024x128 .f32) (h2 : a2.IsWhole)
    (a3 : Memref sig .tc .vmem S1024x384 .f32) (h3 : a3.IsWhole) (a4 : Memref sig .tc .vmem S128x128x384 .bf16) (h4 : a4.IsWhole)
    (a5 : Memref sig .tc .vmem S1x128 .f32) (h5 : a5.IsWhole) (a6 : Memref sig .tc .vmem S1024x128 .f32) (h6 : a6.IsWhole)
    (v3 : Vec Ideal S128x128x384 .bf16) (X2 : BufTy.Contents (Elt Ideal) a2.view.ty) (X3 : BufTy.Contents (Elt Ideal) a3.view.ty)
    (G : BufTy.Contents (Elt Ideal) a6.view.ty)

/-- One trip stores ONE piece: through its 64 rows, the accumulation of those rows of the two feature slabs with the weight
    tile onto what the rows held. -/
theorem trip_piece (k : Fin k1_t1_loop.trips) (f : BufTy.Contents (Elt Ideal) a6.view.ty) :
    tripL_k1_t1 (F := Ideal) 𝒱 c bd i a2 h2 a3 h3 a4 h4 a5 h5 a6 h6 v3 X2 X3 k f
      = [⟨rows k, k1_pay2 (F := Ideal) v3 (a2.view.readAt (Elt Ideal) (rows k).toLoadRect X2)
            (a3.view.readAt (Elt Ideal) (rows' k).toLoadRect X3) (a6.view.readAt (Elt Ideal) (rows k).toLoadRect f)⟩] := by
  unfold tripL_k1_t1 trip_k1_t1
  conv_lhs => dsimp only

/-- What the whole loop leaves in the output tile, as a function of what it found there (`G`): every entry gains its
    point's contraction. -/
abbrev after : Vec Ideal S1024x128 .f32 :=
  step (a2.view.read (Elt Ideal) X2) (a3.view.read (Elt Ideal) X3) v3 (a6.view.read (Elt Ideal) G)

/-- The trip's payload is the loop's result on the trip's rows, provided those rows still hold what the loop found there. -/
theorem piece_value (k : Fin k1_t1_loop.trips) (f : BufTy.Contents (Elt Ideal) a6.view.ty)
    (hf : ∀ x : (rows k).shape.Idx, a6.view.read (Elt Ideal) f ((rows k).emb x) = a6.view.read (Elt Ideal) G ((rows k).emb x))
    (x : (rows k).shape.Idx) :
    k1_pay2 (F := Ideal) v3 (a2.view.readAt (Elt Ideal) (rows k).toLoadRect X2)
        (a3.view.readAt (Elt Ideal) (rows' k).toLoadRect X3) (a6.view.readAt (Elt Ideal) (rows k).toLoadRect f) x
      = after a2 a3 a6 v3 X2 X3 G ((rows k).emb x) := by
  obtain ⟨p, q, rfl⟩ : ∃ (p : Fin 64) (q : Fin 128), x = ix2 p q := ⟨x 0, x 1, eq_ix2 x⟩
  refine (pay2_apply v3 _ _ _ p q).trans ?_
  show a6.view.read (Elt Ideal) f ((rows k).emb (ix2 p q)) + _ = a6.view.read (Elt Ideal) G ((rows k).emb (ix2 p q)) + _
  rw [hf]
  refine congrArg (fun s => a6.view.read (Elt Ideal) G ((rows k).emb (ix2 p q)) + s) ?_
  refine Finset.sum_congr rfl fun κ _ => ?_
  have e0 : (((rows k).emb (ix2 p q)) 0).val = 64 * k.val + p.val := by
    show k1_off1 k 0 + 1 * p.val = _; rw [off1_0]; omega
  have e1 : (((rows k).emb (ix2 p q)) 1).val = q.val := by
    show k1_off1 k 1 + 1 * q.val = _; rw [off1_1]; omega
  refine congrArg₂ (· * ·) (congrArg₂ (· * ·) ?_ ?_) ?_
  · show a2.view.read (Elt Ideal) X2 ((rows k).toLoadRect.idx (ix2 p (khi κ))) = a2.view.read (Elt Ideal) X2 (ix2 (((rows k).emb (ix2 p q)) 0) (khi κ))
    refine at_eq _ _ _ ?_ ?_
    · show k1_off1 k 0 + 1 * p.val = (((rows k).emb (ix2 p q)) 0).val; rw [e0, off1_0]; omega
    · show k1_off1 k 1 + 1 * (khi κ).val = (khi κ).val; rw [off1_1]; omega
  · show a3.view.read (Elt Ideal) X3 ((rows' k).toLoadRect.idx (ix2 p (klo κ))) = a3.view.read (Elt Ideal) X3 (ix2 (((rows k).emb (ix2 p q)) 0) (klo κ))
    refine at_eq _ _ _ ?_ ?_
    · show k1_off2 k 0 + 1 * p.val = (((rows k).emb (ix2 p q)) 0).val; rw [e0, off2_0]; omega
    · show k1_off2 k 1 + 1 * (klo κ).val = (klo κ).val; rw [off2_1]; omega
  · exact congrArg v3 (funext fun a => match a with
      | ⟨0, _⟩ => Fin.ext e1.symm
      | ⟨1, _⟩ => rfl
      | ⟨2, _⟩ => rfl)

/-- The pieces of the first k trips: each is the loop's result on its rectangle, lies in the rows below 64·k, and
    together they cover those rows. (An earlier trip never touches a later trip's rows, so each trip finds in its
    rows what the loop found there.) -/
theorem pieces_inv : ∀ (k : ℕ), k ≤ k1_t1_loop.trips →
    (∀ p ∈ pb_k1_t1 (F := Ideal) 𝒱 c bd i a2 h2 a3 h3 a4 h4 a5 h5 a6 h6 v3 X2 X3 G k,
        (∀ x : p.1.shape.Idx, p.2 x = after a2 a3 a6 v3 X2 X3 G (p.1.emb x))
        ∧ ∀ y : S1024x128.Idx, y ∈ p.1.set → (y 0).val < 64 * k)
    ∧ ∀ y : S1024x128.Idx, (y 0).val < 64 * k →
        ∃ p ∈ pb_k1_t1 (F := Ideal) 𝒱 c bd i a2 h2 a3 h3 a4 h4 a5 h5 a6 h6 v3 X2 X3 G k, y ∈ p.1.set
  | 0, _ => ⟨fun p hp => absurd hp List.not_mem_nil, fun y hy => absurd hy (Nat.not_lt_zero _)⟩
  | k + 1, hk => by
    obtain ⟨ihP, ihQ⟩ := pieces_inv k (Nat.le_of_succ_le hk)
    have e := pb_k1_t1_succ (F := Ideal) 𝒱 c bd i a2 h2 a3 h3 a4 h4 a5 h5 a6 h6 v3 X2 X3 G ⟨k, hk⟩
    rw [trip_piece] at e
    have hrow : ∀ y : S1024x128.Idx, y ∈ (rows ⟨k, hk⟩).set ↔ 64 * k ≤ (y 0).val ∧ (y 0).val < 64 * k + 64 := by
      intro y
      rw [Rect.mem_set_unit]
      have y1 : (y 1).val < 128 := (y 1).isLt
      constructor
      · intro h
        have := h 0
        rw [off1_0] at this
        exact ⟨this.1, this.2⟩
      · intro h a
        match a with
        | ⟨0, _⟩ => show k1_off1 ⟨k, hk⟩ 0 ≤ (y 0).val ∧ (y 0).val < k1_off1 ⟨k, hk⟩ 0 + 64; rw [off1_0]; exact h
        | ⟨1, _⟩ => show k1_off1 ⟨k, hk⟩ 1 ≤ (y 1).val ∧ (y 1).val < k1_off1 ⟨k, hk⟩ 1 + 128; rw [off1_1]; omega
    refine ⟨fun p hp => ?_, fun y hy => ?_⟩
    · rw [show k + 1 = (⟨k, hk⟩ : Fin k1_t1_loop.trips).val + 1 from rfl, e] at hp
      rcases List.mem_append.mp hp with hp | hp
      · obtain rfl := List.mem_singleton.mp hp
        refine ⟨fun x => piece_value a2 a3 a6 v3 X2 X3 G ⟨k, hk⟩ _ (fun x' => ?_) x, fun y hy => ?_⟩
        · refine View.read_writes_apply_of_forall_not_mem a6.view G _ _ fun p' hp' hmem => ?_
          have h1 := (ihP p' hp').2 _ hmem
          have hm : (rows ⟨k, hk⟩).emb x' ∈ (rows ⟨k, hk⟩).set := by
            rw [← Rect.map_emb_univ]; exact Finset.mem_map_of_mem _ (Finset.mem_univ x')
          have h2 := ((hrow _).mp hm).1
          omega
        · have := (hrow y).mp hy
          omega
      · exact ⟨(ihP p hp).1, fun y hy => Nat.lt_of_lt_of_le ((ihP p hp).2 y hy) (by omega)⟩
    · rw [show k + 1 = (⟨k, hk⟩ : Fin k1_t1_loop.trips).val + 1 from rfl, e]
      by_cases hlt : (y 0).val < 64 * k
      · obtain ⟨p, hp, hy'⟩ := ihQ y hlt
        exact ⟨p, List.mem_append_right _ hp, hy'⟩
      · exact ⟨_, List.mem_append_left _ (List.mem_singleton_self _), (hrow y).mpr ⟨by omega, by omega⟩⟩

/-- So the sixteen trips' pieces, read back, are the loop's result everywhere — also under stores made before them. -/
theorem canon_pieces (L' : List (View.Piece (Elt Ideal) S1024x128 .f32)) (y : S1024x128.Idx) :
    View.canon (pb_k1_t1 (F := Ideal) 𝒱 c bd i a2 h2 a3 h3 a4 h4 a5 h5 a6 h6 v3 X2 X3 G k1_t1_loop.trips ++ L') y
      = after a2 a3 a6 v3 X2 X3 G y := by
  obtain ⟨hP, hQ⟩ := pieces_inv 𝒱 c bd i a2 h2 a3 h3 a4 h4 a5 h5 a6 h6 v3 X2 X3 G k1_t1_loop.trips (Nat.le_refl _)
  refine View.canon_append_of_pieces _ L' _ (fun p hp => (hP p hp).1) y (hQ y ?_)
  have : (y 0).val < 1024 := (y 0).isLt
  rw [trips_eq]; omega

/-- The same for the tile's contents after the loop, whatever view reads them. -/
theorem read_pieces (y : S1024x128.Idx) :
    a6.view.read (Elt Ideal) (a6.view.writes (Elt Ideal) G
        (pb_k1_t1 (F := Ideal) 𝒱 c bd i a2 h2 a3 h3 a4 h4 a5 h5 a6 h6 v3 X2 X3 G k1_t1_loop.trips)) y
      = after a2 a3 a6 v3 X2 X3 G y := by
  obtain ⟨hP, hQ⟩ := pieces_inv 𝒱 c bd i a2 h2 a3 h3 a4 h4 a5 h5 a6 h6 v3 X2 X3 G k1_t1_loop.trips (Nat.le_refl _)
  refine View.read_writes_apply_of_pieces a6.view G _ _ (fun p hp => (hP p hp).1) y (hQ y ?_)
  have : (y 0).val < 1024 := (y 0).isLt
  rw [trips_eq]; omega

end

end Cert.KernelIdeal.WideLoop

end
-- ==== Proof.WideBody.lean ====
/-
  The wide kernel body, case by case, as values on the extended reals.

  At one grid point the body may zero the output tile (first point of a reduction run), then adds to every batch row
  of the tile the contraction of that row's flattened outer-product slab with the weight tile — 64 rows per loop
  trip, sixteen trips —, and may finally add the bias row (last point of the run). `step` is the accumulation of one
  point; the three control cases leave `step` of the zero tile, `step` of what the tile held, and the latter plus
  the bias.
-/
import proofs.«181493_j79920751444429_2_alg».proof.Proof.KernelIdealFrame
import proofs.«181493_j79920751444429_2_alg».proof.Proof.WideStep
import proofs.«181493_j79920751444429_2_alg».proof.Proof.WidePayload
import proofs.«181493_j79920751444429_2_alg».proof.Proof.WideLoop

set_option maxRecDepth 16384

noncomputable section

namespace Cert.KernelIdeal.WideBody

open Cert.KernelIdeal Cert.KernelIdeal.Gen Cert.KernelIdeal.GenP Cert.KernelIdeal.WideStep
open Idealize.ShloMosaic Idealize.ShloMosaic.TcCoe Idealize.ShloMosaic.ValueIdx Idealize.SL.Sem Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl

/-- The weight tile, loaded whole from a staging buffer that holds it, is the tile. -/
theorem tile_load (a4 : Memref sig .tc .vmem S128x128x384 .bf16) (h4 : a4.IsWhole) (x2 : Vec Ideal S128x128x384 .bf16) :
    View.readAt (Elt Ideal) a4.view (Rect.unit (s := S128x128x384) ![0, 0, 0] S128x128x384.size inb_S128x128x384_S128x128x384_0_0_0).toLoadRect (h4.unread x2) = x2 := by
  rw [View.readAt_eq_ld, h4.read_unread]
  exact View.ld_unit_zero hz3 _ x2

/-- The bias row, loaded whole, is the row. -/
theorem bias_load (a5 : Memref sig .tc .vmem S1x128 .f32) (h5 : a5.IsWhole) (x3 : Vec Ideal S1x128 .f32) :
    View.readAt (Elt Ideal) a5.view (Rect.unit (s := S1x128) ![0, 0] S1x128.size inb_S1x128_S1x128_0_0).toLoadRect (h5.unread x3) = x3 := by
  rw [View.readAt_eq_ld, h5.read_unread]
  exact View.ld_unit_zero hz2 _ x3

/-- A middle point: accumulated into what the tile held. -/
theorem out_B (c : Dev nD) (i : grid1.Coords) (a2 : Memref sig .tc .vmem S1024x128 .f32) (h2 : a2.IsWhole)
    (a3 : Memref sig .tc .vmem S1024x384 .f32) (h3 : a3.IsWhole) (a4 : Memref sig .tc .vmem S128x128x384 .bf16) (h4 : a4.IsWhole)
    (a5 : Memref sig .tc .vmem S1x128 .f32) (h5 : a5.IsWhole) (a6 : Memref sig .tc .vmem S1024x128 .f32) (h6 : a6.IsWhole)
    (hc0 : ¬cond1_0 i) (hc1 : ¬cond1_1 i)
    (x0 : Vec Ideal S1024x128 .f32) (x1 : Vec Ideal S1024x384 .f32) (x2 : Vec Ideal S128x128x384 .bf16) (x3 : Vec Ideal S1x128 .f32)
    (xo : Vec Ideal S1024x128 .f32) :
    out1_B_4 (F := Ideal) c i a2 h2 a3 h3 a4 h4 a5 h5 a6 h6 hc0 hc1 x0 x1 x2 x3 xo = step x0 x1 x2 xo := by
  unfold out1_B_4
  rw [View.read_writes_eq_canon _ _ _ (cover1_B_4 c i a2 h2 a3 h3 a4 h4 a5 h5 a6 h6 hc0 hc1 x0 x1 x2 x3 xo)]
  unfold kernelRun1_B
  dsimp only
  funext y
  have e := WideLoop.canon_pieces Variants.none c none i a2 h2 a3 h3 a4 h4 a5 h5 a6 h6 (View.readAt (Elt Ideal) a4.view (Rect.unit (s := S128x128x384) ![0, 0, 0] S128x128x384.size inb_S128x128x384_S128x128x384_0_0_0).toLoadRect (h4.unread x2))
    (h2.unread x0) (h3.unread x1) (h6.unread xo) [] y
  rw [List.append_nil] at e
  refine e.trans ?_
  show step (a2.view.read (Elt Ideal) (h2.unread x0)) (a3.view.read (Elt Ideal) (h3.unread x1)) _
    (a6.view.read (Elt Ideal) (h6.unread xo)) y = _
  rw [h2.read_unread, h3.read_unread, h6.read_unread, tile_load]

/-- First point of a run: the tile is zeroed, then accumulated into. -/
theorem out_A (c : Dev nD) (i : grid1.Coords) (a2 : Memref sig .tc .vmem S1024x128 .f32) (h2 : a2.IsWhole)
    (a3 : Memref sig .tc .vmem S1024x384 .f32) (h3 : a3.IsWhole) (a4 : Memref sig .tc .vmem S128x128x384 .bf16) (h4 : a4.IsWhole)
    (a5 : Memref sig .tc .vmem S1x128 .f32) (h5 : a5.IsWhole) (a6 : Memref sig .tc .vmem S1024x128 .f32) (h6 : a6.IsWhole)
    (hc0 : cond1_0 i) (hc1 : ¬cond1_1 i)
    (x0 : Vec Ideal S1024x128 .f32) (x1 : Vec Ideal S1024x384 .f32) (x2 : Vec Ideal S128x128x384 .bf16) (x3 : Vec Ideal S1x128 .f32) :
    out1_A_4 (F := Ideal) c i a2 h2 a3 h3 a4 h4 a5 h5 a6 h6 hc0 hc1 x0 x1 x2 x3 = step x0 x1 x2 zeroTile := by
  unfold out1_A_4
  rw [View.read_writes_eq_canon _ _ _ (cover1_A_4 c i a2 h2 a3 h3 a4 h4 a5 h5 a6 h6 hc0 hc1 x0 x1 x2 x3)]
  unfold kernelRun1_A
  dsimp only
  sl_unfold_words
  funext y
  refine (WideLoop.canon_pieces Variants.none c none i a2 h2 a3 h3 a4 h4 a5 h5 a6 h6 (View.readAt (Elt Ideal) a4.view (Rect.unit (s := S128x128x384) ![0, 0, 0] S128x128x384.size inb_S128x128x384_S128x128x384_0_0_0).toLoadRect (h4.unread x2))
    (h2.unread x0) (h3.unread x1) (a6.view.writes (Elt Ideal) a6.view.junk [(⟨Rect.unit (s := S1024x128) ![0, 0] S1024x128.size inb_S1024x128_S1024x128_0_0, k1_pay1 (F := Ideal)⟩ : View.Piece (Elt Ideal) S1024x128 .f32)]) [(⟨Rect.unit (s := S1024x128) ![0, 0] S1024x128.size inb_S1024x128_S1024x128_0_0, k1_pay1 (F := Ideal)⟩ : View.Piece (Elt Ideal) S1024x128 .f32)] y).trans ?_
  show step (a2.view.read (Elt Ideal) (h2.unread x0)) (a3.view.read (Elt Ideal) (h3.unread x1)) _
    (a6.view.read (Elt Ideal) (a6.view.writes (Elt Ideal) a6.view.junk [(⟨Rect.unit (s := S1024x128) ![0, 0] S1024x128.size inb_S1024x128_S1024x128_0_0, k1_pay1 (F := Ideal)⟩ : View.Piece (Elt Ideal) S1024x128 .f32)])) y = _
  rw [h2.read_unread, h3.read_unread, tile_load, View.read_writes_junk_eq_canon, View.canon_unit_zero hz2]
  rfl

/-- Last point of a run: accumulated into what the tile held, then the bias row added to every batch row. -/
theorem out_C (c : Dev nD) (i : grid1.Coords) (a2 : Memref sig .tc .vmem S1024x128 .f32) (h2 : a2.IsWhole)
    (a3 : Memref sig .tc .vmem S1024x384 .f32) (h3 : a3.IsWhole) (a4 : Memref sig .tc .vmem S128x128x384 .bf16) (h4 : a4.IsWhole)
    (a5 : Memref sig .tc .vmem S1x128 .f32) (h5 : a5.IsWhole) (a6 : Memref sig .tc .vmem S1024x128 .f32) (h6 : a6.IsWhole)
    (hc0 : ¬cond1_0 i) (hc1 : cond1_1 i)
    (x0 : Vec Ideal S1024x128 .f32) (x1 : Vec Ideal S1024x384 .f32) (x2 : Vec Ideal S128x128x384 .bf16) (x3 : Vec Ideal S1x128 .f32)
    (xo : Vec Ideal S1024x128 .f32) :
    out1_C_4 (F := Ideal) c i a2 h2 a3 h3 a4 h4 a5 h5 a6 h6 hc0 hc1 x0 x1 x2 x3 xo
      = fun y => step x0 x1 x2 xo y + x3 (ix2 (0 : Fin 1) (y 1)) := by
  unfold out1_C_4
  rw [View.read_writes_eq_canon _ _ _ (cover1_C_4 c i a2 h2 a3 h3 a4 h4 a5 h5 a6 h6 hc0 hc1 x0 x1 x2 x3 xo)]
  unfold kernelRun1_C
  dsimp only
  rw [View.canon_cons_unit_zero hz2]
  funext y
  obtain ⟨p, q, rfl⟩ : ∃ (p : Fin 1024) (q : Fin 128), y = ix2 p q := ⟨y 0, y 1, eq_ix2 y⟩
  refine (WidePayload.pay3_apply _ _ p q).trans ?_
  rw [bias_load, View.readAt_eq_ld, View.ld_unit_zero hz2]
  refine congrArg (fun s => s + x3 (ix2 (0 : Fin 1) q)) ?_
  refine (WideLoop.read_pieces Variants.none c none i a2 h2 a3 h3 a4 h4 a5 h5 a6 h6 (View.readAt (Elt Ideal) a4.view (Rect.unit (s := S128x128x384) ![0, 0, 0] S128x128x384.size inb_S128x128x384_S128x128x384_0_0_0).toLoadRect (h4.unread x2))
    (h2.unread x0) (h3.unread x1) (h6.unread xo) (ix2 p q)).trans ?_
  show step (a2.view.read (Elt Ideal) (h2.unread x0)) (a3.view.read (Elt Ideal) (h3.unread x1)) _
    (a6.view.read (Elt Ideal) (h6.unread xo)) (ix2 p q) = _
  rw [h2.read_unread, h3.read_unread, h6.read_unread, tile_load]

end Cert.KernelIdeal.WideBody

end
-- ==== Proof.LibSumIndex.lean ====
/-
  Finite sums re-indexed, in any additive commutative monoid (so on the extended reals with no finiteness):

  * `sum_blocks`: a sum over `Fin N` with `N = J * B` is the double sum over its `J` consecutive blocks of length
    `B`, position `a * B + b` — what joins a sum over one long axis (a flattened `x.reshape(n, -1)`, or all the rows of
    an array) to the same sum taken block by block (a grid walking the axis, or the axis split in two);
  * `sum_idx4`, `sum_idx1`: a sum over the index set of a rank-4 (rank-1) shape is the iterated sum over its
    coordinates, with the index rebuilt by `ix4` (`ix1`) — the companions of the library's `sum_idx2`.
-/
import Idealize.ShloMosaic.Lib.ValueIdx

noncomputable section

open scoped BigOperators

namespace Cert.LibSumIndex

open Idealize.ShloMosaic Idealize.ShloMosaic.ValueIdx

/-- A sum over the first `J * B` indices is the sum over its `J` consecutive blocks of length `B`. -/
theorem sum_blocks {M : Type*} [AddCommMonoid M] (J B N : ℕ) (hN : J * B = N) (f : Fin N → M) :
    ∑ k, f k = ∑ a : Fin J, ∑ b : Fin B, f ⟨a.val * B + b.val, by
      subst hN
      calc a.val * B + b.val < a.val * B + B := Nat.add_lt_add_left b.isLt _
        _ = (a.val + 1) * B := (Nat.succ_mul _ _).symm
        _ ≤ J * B := Nat.mul_le_mul_right _ a.isLt⟩ := by
  subst hN
  rw [← Equiv.sum_comp finProdFinEquiv f, Fintype.sum_prod_type]
  refine Finset.sum_congr rfl fun a _ => Finset.sum_congr rfl fun b _ => congrArg f (Fin.ext ?_)
  show b.val + B * a.val = a.val * B + b.val
  rw [Nat.mul_comm, Nat.add_comm]

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    ⟨fun i => i 0, fun a => ix1 a, fun i => (eq_ix1 i).symm, fun _ => rfl⟩
  rw [← Equiv.sum_comp e.symm f]
  rfl

end Cert.LibSumIndex

end
-- ==== Proof.WideAlgebra.lean ====
/-
  The wide contraction taken in three consecutive blocks.

  The flattened outer-product axis has 147456 = 3 · 49152 positions. Position κ of block ki is
  K = ki · 49152 + κ. Since 49152 = 128 · 384, the pair (K / 384, K % 384) that K stands for in the
  384 × 384 outer product is (128 · ki + κ / 384, κ % 384): block ki covers the rows 128 · ki … 128 · ki + 127
  of the outer product, all 384 columns of each.

  Adding the three block sums one after the other onto zero gives the sum over the whole axis. This is only
  the splitting of a finite sum into consecutive pieces, valid in any additive commutative monoid, so it holds
  on the extended reals with no finiteness assumption.
-/
import proofs.«181493_j79920751444429_2_alg».proof.Proof.Spec
import proofs.«181493_j79920751444429_2_alg».proof.Proof.LibSumIndex
import Idealize.ShloMosaic.PureOps.Ideal
import Idealize.ShloMosaic.PureOps.Ideal.Laws

namespace Cert.WideAlgebra

open Idealize.ShloMosaic

/-- Position κ of block ki on the flattened axis. -/
def blk (ki : Fin 3) (κ : Fin 49152) : Fin 147456 := ⟨ki.val * 49152 + κ.val, by have := ki.isLt; have := κ.isLt; omega⟩

/-- The position written by its outer-product row and column: row 128 · ki + κ / 384, column κ % 384. -/
theorem blk_val (ki : Fin 3) (κ : Fin 49152) : (blk ki κ).val = (128 * ki.val + κ.val / 384) * 384 + κ.val % 384 := by
  show ki.val * 49152 + κ.val = (128 * ki.val + κ.val / 384) * 384 + κ.val % 384
  omega

/-- Its row in the outer product. -/
theorem hi_blk (ki : Fin 3) (κ : Fin 49152) : (Cert.Spec.hi (blk ki κ)).val = 128 * ki.val + κ.val / 384 := by
  show (ki.val * 49152 + κ.val) / 384 = 128 * ki.val + κ.val / 384
  omega

/-- Its column in the outer product. -/
theorem lo_blk (ki : Fin 3) (κ : Fin 49152) : (Cert.Spec.lo (blk ki κ)).val = κ.val % 384 := by
  show (ki.val * 49152 + κ.val) % 384 = κ.val % 384
  omega

/-- Starting from zero and adding the sums over the three blocks in order is the sum over the whole axis. -/
theorem three_blocks (g : Fin 147456 → EReal) :
    ((Ideal.ofBits .f32 0x00000000#32 + ∑ κ : Fin 49152, g (blk 0 κ)) + ∑ κ : Fin 49152, g (blk 1 κ)) + ∑ κ : Fin 49152, g (blk 2 κ) = ∑ K : Fin 147456, g K := by
  rw [Ideal.ofBits_zero_f32, zero_add, Cert.LibSumIndex.sum_blocks 3 49152 147456 (by norm_num) g, Fin.sum_univ_three]
  rfl

end Cert.WideAlgebra
-- ==== Proof.WideValue.lean ====
/-
  The wide half, on the kernel's side.

  The second region computes a [1024, 768] array in six column tiles of 128 columns. Each tile is visited at three
  consecutive grid points: point `t` works on tile `t / 3` at reduction step `t % 3`. The flattened outer-product
  axis has 147456 = 3 · 49152 positions, and step `ki` covers block `ki` of it: the outer-product rows
  `128 ki … 128 ki + 127`, all 384 columns of each. At a point the body adds to entry `(b, n')` of the tile
      ∑ κ < 49152, (slab(b, κ / 384) · second(b, κ % 384)) · tile(n', κ / 384, κ % 384),
  the first point of a run starting from zero and the last one adding the bias.

  Read through the windows, the slab is columns `128 ki …` of the first feature matrix `hs`, the second operand is
  the whole second feature matrix `ht`, and row `n'` of the weight tile is row `n = 128 (t / 3) + n'` of the weight
  `w` at the flattened positions `(128 ki + κ / 384) · 384 + κ % 384 = 49152 ki + κ`. So the three points of a run
  add, in order, the three consecutive blocks of
      ∑ K < 147456, (hs(b, K / 384) · ht(b, K % 384)) · w(n, K),
  and splitting a finite sum into consecutive blocks needs only that addition is associative and commutative: no
  finiteness of the inputs is used. The run's last point writes the tile back, and the six tiles cover the array,
  so after the region's write-backs the array is `wide hs ht w β`.
-/
import proofs.«181493_j79920751444429_2_alg».proof.Proof.WideBody
import proofs.«181493_j79920751444429_2_alg».proof.Proof.WideAlgebra
import proofs.«181493_j79920751444429_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.WideValue

open Cert.KernelIdeal Cert.KernelIdeal.Gen Cert.KernelIdeal.GenP Cert.KernelIdeal.WideStep Cert.WideAlgebra
open Idealize.ShloMosaic Idealize.ShloMosaic.ValueIdx Idealize.ShloMosaic.Pipeline Idealize.ShloMosaic.TcCoe

/-! ## One entry of one output tile: three points' sums are the whole contraction -/

/-- What one grid point adds to entry `(b, n')` of its output tile: the contraction over the point's 49152 positions. -/
def pointSum (x0 : Vec Ideal S1024x128 .f32) (x1 : Vec Ideal S1024x384 .f32) (x2 : Vec Ideal S128x128x384 .bf16)
    (b : Fin 1024) (n' : Fin 128) : EReal :=
  ∑ κ : Fin 49152, (x0 (ix2 b (khi κ)) * x1 (ix2 b (klo κ))) * x2 (ix3 n' (khi κ) (klo κ))

/-- One accumulation step at an entry: what the tile held there, plus the point's sum. -/
theorem step_apply (x0 : Vec Ideal S1024x128 .f32) (x1 : Vec Ideal S1024x384 .f32) (x2 : Vec Ideal S128x128x384 .bf16)
    (acc : Vec Ideal S1024x128 .f32) (b : Fin 1024) (n' : Fin 128) :
    step x0 x1 x2 acc (ix2 b n') = acc (ix2 b n') + pointSum x0 x1 x2 b n' := rfl

section Algebra

variable (hs ht : (⟨2, ![1024, 384]⟩ : Shape).Idx → EReal) (w : (⟨2, ![768, 147456]⟩ : Shape).Idx → EReal)
  (β : (⟨1, ![768]⟩ : Shape).Idx → EReal)

/-- The addend of the wide contraction at batch row `b`, output column `n` and flattened position `K`. -/
def addend (b : Fin 1024) (n : Fin 768) (K : Fin 147456) : EReal :=
  (hs (ix2 b (Cert.Spec.hi K)) * ht (ix2 b (Cert.Spec.lo K))) * w (ix2 n K)

/-- One point's sum. If the point's feature slab is columns `128 ki … 128 ki + 127` of `hs`, its second operand is
    `ht`, and row `n'` of its weight tile is row `n` of `w` at the outer-product rows `128 ki … 128 ki + 127`, then
    the point's contraction over its 49152 positions is the sum of the addends over block `ki` of the flattened axis. -/
theorem point_sum (x0 : Vec Ideal S1024x128 .f32) (x1 : Vec Ideal S1024x384 .f32) (x2 : Vec Ideal S128x128x384 .bf16)
    (ki : Fin 3) (b : Fin 1024) (n' : Fin 128) (n : Fin 768)
    (h0 : ∀ i : Fin 128, x0 (ix2 b i) = hs (ix2 b ⟨128 * ki.val + i.val, by have := ki.isLt; have := i.isLt; omega⟩))
    (h1 : ∀ j : Fin 384, x1 (ix2 b j) = ht (ix2 b j))
    (h2 : ∀ (i : Fin 128) (j : Fin 384), x2 (ix3 n' i j)
      = w (ix2 n ⟨(128 * ki.val + i.val) * 384 + j.val, by have := ki.isLt; have := i.isLt; have := j.isLt; omega⟩)) :
    pointSum x0 x1 x2 b n' = ∑ κ : Fin 49152, addend hs ht w b n (blk ki κ) := by
  unfold pointSum
  refine Finset.sum_congr rfl fun κ _ => ?_
  have e0 : x0 (ix2 b (khi κ)) = hs (ix2 b (Cert.Spec.hi (blk ki κ))) :=
    (h0 (khi κ)).trans (congrArg (fun I => hs (ix2 b I)) (Fin.ext (hi_blk ki κ).symm))
  have e1 : x1 (ix2 b (klo κ)) = ht (ix2 b (Cert.Spec.lo (blk ki κ))) :=
    (h1 (klo κ)).trans (congrArg (fun J => ht (ix2 b J)) (Fin.ext (lo_blk ki κ).symm))
  have e2 : x2 (ix3 n' (khi κ) (klo κ)) = w (ix2 n (blk ki κ)) :=
    (h2 (khi κ) (klo κ)).trans (congrArg (fun K => w (ix2 n K)) (Fin.ext (blk_val ki κ).symm))
  rw [e0, e1, e2]
  rfl

/-- One entry of one tile after its three points: zero, plus the three points' sums in order, plus the bias, is
    the wide half at that entry. -/
theorem tile_value
    (a0 : Vec Ideal S1024x128 .f32) (a1 : Vec Ideal S1024x384 .f32) (a2 : Vec Ideal S128x128x384 .bf16)
    (b0 : Vec Ideal S1024x128 .f32) (b1 : Vec Ideal S1024x384 .f32) (b2 : Vec Ideal S128x128x384 .bf16)
    (c0 : Vec Ideal S1024x128 .f32) (c1 : Vec Ideal S1024x384 .f32) (c2 : Vec Ideal S128x128x384 .bf16)
    (c3 : Vec Ideal S1x128 .f32) (b : Fin 1024) (n' : Fin 128) (n : Fin 768)
    (hA : pointSum a0 a1 a2 b n' = ∑ κ : Fin 49152, addend hs ht w b n (blk 0 κ))
    (hB : pointSum b0 b1 b2 b n' = ∑ κ : Fin 49152, addend hs ht w b n (blk 1 κ))
    (hC : pointSum c0 c1 c2 b n' = ∑ κ : Fin 49152, addend hs ht w b n (blk 2 κ))
    (h3 : c3 (ix2 (0 : Fin 1) n') = β (ix1 n)) :
    step c0 c1 c2 (step b0 b1 b2 (step a0 a1 a2 zeroTile)) (ix2 b n') + c3 (ix2 (0 : Fin 1) n')
      = Cert.Spec.wide hs ht w β (ix2 b n) := by
  rw [step_apply, step_apply, step_apply, hA, hB, hC, h3]
  show ((Ideal.ofBits .f32 0x00000000#32 + _) + _) + _ + _ = (∑ K : Fin 147456, addend hs ht w b n K) + β (ix1 n)
  rw [three_blocks]

end Algebra

/-! ## The windows' blocks at a grid point -/

/-- The block index of each window at each of the eighteen grid points. Point `t` is output tile `t / 3`, reduction
    step `t % 3`: the feature slab sits at column block `t % 3`; the second feature matrix is whole; the weight tile
    at (`t / 3`, `t % 3`, 0); the bias and the result at column block `t / 3`. -/
theorem block_indices : ∀ t : Fin cfg1.N, t.val < 18
    ∧ win1_0.index t (0 : Fin 2) = 0 ∧ win1_0.index t (1 : Fin 2) = t.val % 3
    ∧ win1_1.index t (0 : Fin 2) = 0 ∧ win1_1.index t (1 : Fin 2) = 0
    ∧ win1_2.index t (0 : Fin 3) = t.val / 3 ∧ win1_2.index t (1 : Fin 3) = t.val % 3 ∧ win1_2.index t (2 : Fin 3) = 0
    ∧ win1_3.index t (0 : Fin 2) = 0 ∧ win1_3.index t (1 : Fin 2) = t.val / 3
    ∧ win1_4.index t (0 : Fin 2) = 0 ∧ win1_4.index t (1 : Fin 2) = t.val / 3 :=
  (by decide +kernel : ∀ t : Fin grid1.N, _)

/-! ## The cover -/

/-- Membership in the tile point `t` writes, coordinate by coordinate: from the tile's first row (column) up to,
    not including, the next tile's. -/
theorem mem_block (t : Fin cfg1.N) (i : S1024x768.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v7).slice (win1_4.rect t)).set ↔ _
  rw [View.set_slice_whole, Rect.mem_set_unit]
  exact Iff.rfl

/-- The six column tiles cover the result: column `n` lies in tile `n / 128`, which is written back at the last of
    its three points, `3 (n / 128) + 2`. -/
theorem blocks_cover (i : S1024x768.Idx) :
    ∃ t : Fin cfg1.N, (cfg1.win 4).flush t = true ∧ i ∈ ((cfg1.win 4).blk t).view.set := by
  have hi0 : (i 0).val < 1024 := (i 0).isLt
  have hi1 : (i 1).val < 768 := (i 1).isLt
  have hN : cfg1.N = 18 := N_1
  have ht : 3 * ((i 1).val / 128) + 2 < cfg1.N := by rw [hN]; omega
  obtain ⟨-, -, -, -, -, -, -, -, -, -, e0, e1⟩ := block_indices ⟨3 * ((i 1).val / 128) + 2, ht⟩
  refine ⟨⟨3 * ((i 1).val / 128) + 2, ht⟩, (flush1_4 _).mpr (by show (3 * ((i 1).val / 128) + 2) % 3 = 2; omega), ?_⟩
  rw [mem_block]
  intro a
  match a with
  | ⟨0, _⟩ =>
    show win1_4.index ⟨3 * ((i 1).val / 128) + 2, ht⟩ (0 : Fin 2) * 1024 ≤ (i 0).val ∧ (i 0).val < win1_4.index ⟨3 * ((i 1).val / 128) + 2, ht⟩ (0 : Fin 2) * 1024 + 1024
    rw [e0]
    omega
  | ⟨1, _⟩ =>
    show win1_4.index ⟨3 * ((i 1).val / 128) + 2, ht⟩ (1 : Fin 2) * 128 ≤ (i 1).val ∧ (i 1).val < win1_4.index ⟨3 * ((i 1).val / 128) + 2, ht⟩ (1 : Fin 2) * 128 + 128
    rw [e1]
    show (3 * ((i 1).val / 128) + 2) / 3 * 128 ≤ (i 1).val ∧ (i 1).val < (3 * ((i 1).val / 128) + 2) / 3 * 128 + 128
    omega

variable (V : (c : Dev nD) → (b : Ref sig .tc) → Buf (Elt Ideal) ((c : Thread nD τ).loc b)) (c : Dev nD)

/-- The feature slab at point `t` is columns `128 (t % 3) … 128 (t % 3) + 127` of the first feature matrix. -/
theorem slab_block (t : Fin cfg1.N) (b : Fin 1024) (i : Fin 128) (I : Fin 384) (hI : I.val = 128 * (t.val % 3) + i.val) :
    iblk1 V c 0 t (ix2 b i) = V c main_arg0 (ix2 b I) := by
  obtain ⟨-, e0, e1, -⟩ := block_indices t
  show V c main_arg0 (((cfg1.win 0).blk t).view.emb (ix2 b i)) = V c main_arg0 (ix2 b I)
  refine congrArg (V c main_arg0) (funext fun a => Fin.ext ?_)
  match a with
  | ⟨0, _⟩ => show win1_0.index t (0 : Fin 2) * 1024 + 1 * b.val = b.val; rw [e0]; omega
  | ⟨1, _⟩ => show win1_0.index t (1 : Fin 2) * 128 + 1 * i.val = I.val; rw [e1, hI]; omega

/-- The second feature matrix's block is the whole matrix, at every point. -/
theorem whole_block (t : Fin cfg1.N) (b : Fin 1024) (j : Fin 384) :
    iblk1 V c 1 t (ix2 b j) = V c main_arg1 (ix2 b j) := by
  obtain ⟨-, -, -, e0, e1, -⟩ := block_indices t
  show V c main_arg1 (((cfg1.win 1).blk t).view.emb (ix2 b j)) = V c main_arg1 (ix2 b j)
  refine congrArg (V c main_arg1) (funext fun a => Fin.ext ?_)
  match a with
  | ⟨0, _⟩ => show win1_1.index t (0 : Fin 2) * 1024 + 1 * b.val = b.val; rw [e0]; omega
  | ⟨1, _⟩ => show win1_1.index t (1 : Fin 2) * 384 + 1 * j.val = j.val; rw [e1]; omega

/-- The weight tile at point `t`: output columns `128 (t / 3) …`, outer-product rows `128 (t % 3) …`, all 384 columns. -/
theorem weight_tile (t : Fin cfg1.N) (n' i : Fin 128) (j : Fin 384) (n : Fin 768) (I : Fin 384)
    (hn : n.val = 128 * (t.val / 3) + n'.val) (hI : I.val = 128 * (t.val % 3) + i.val) :
    iblk1 V c 2 t (ix3 n' i j) = V c main_v5 (ix3 n I j) := by
  obtain ⟨-, -, -, -, -, e0, e1, e2, -⟩ := block_indices t
  show V c main_v5 (((cfg1.win 2).blk t).view.emb (ix3 n' i j)) = V c main_v5 (ix3 n I j)
  refine congrArg (V c main_v5) (funext fun a => Fin.ext ?_)
  match a with
  | ⟨0, _⟩ => show win1_2.index t (0 : Fin 3) * 128 + 1 * n'.val = n.val; rw [e0, hn]; omega
  | ⟨1, _⟩ => show win1_2.index t (1 : Fin 3) * 128 + 1 * i.val = I.val; rw [e1, hI]; omega
  | ⟨2, _⟩ => show win1_2.index t (2 : Fin 3) * 384 + 1 * j.val = j.val; rw [e2]; omega

/-- The bias block at point `t`: columns `128 (t / 3) …` of the bias row. -/
theorem bias_tile (t : Fin cfg1.N) (n' : Fin 128) (n : Fin 768) (hn : n.val = 128 * (t.val / 3) + n'.val) :
    iblk1 V c 3 t (ix2 (0 : Fin 1) n') = V c main_v6 (ix2 (0 : Fin 1) n) := by
  obtain ⟨-, -, -, -, -, -, -, -, e0, e1, -⟩ := block_indices t
  show V c main_v6 (((cfg1.win 3).blk t).view.emb (ix2 (0 : Fin 1) n')) = V c main_v6 (ix2 (0 : Fin 1) n)
  refine congrArg (V c main_v6) (funext fun a => Fin.ext ?_)
  match a with
  | ⟨0, _⟩ => show win1_3.index t (0 : Fin 2) * 1 + 1 * 0 = 0; rw [e0]
  | ⟨1, _⟩ => show win1_3.index t (1 : Fin 2) * 128 + 1 * n'.val = n.val; rw [e1, hn]; omega

/-! ## The output tile after the last point of its run -/

/-- What the tile holds after a point depends on the point's position only. -/
theorem outsAt1_congr {n n' : ℕ} (e : n = n') (hn : n < cfg1.N) (hn' : n' < cfg1.N) :
    outsAt1 (F := Ideal) V c n hn = outsAt1 (F := Ideal) V c n' hn' := by
  subst e; rfl

/-- The three points of a run, one after the other. At the last point `t` of a run (`t % 3 = 2`), with `t0`, `t1` the two points
    before it, the tile holds: zero, accumulated over `t0`, `t1` and `t` in order, plus the bias block of `t`. -/
theorem tile_after (t t1 t0 : Fin cfg1.N) (h : t.val % 3 = 2) (h1 : t1.val + 1 = t.val) (h0 : t0.val + 2 = t.val) :
    outsAt1 (F := Ideal) V c t.val t.isLt = fun y =>
      step (iblk1 V c 0 t) (iblk1 V c 1 t) (iblk1 V c 2 t)
        (step (iblk1 V c 0 t1) (iblk1 V c 1 t1) (iblk1 V c 2 t1)
          (step (iblk1 V c 0 t0) (iblk1 V c 1 t0) (iblk1 V c 2 t0) zeroTile)) y
        + iblk1 V c 3 t (ix2 (0 : Fin 1) (y 1)) := by
  have eA : outsAt1 (F := Ideal) V c t0.val t0.isLt
      = step (iblk1 V c 0 t0) (iblk1 V c 1 t0) (iblk1 V c 2 t0) zeroTile := by
    rw [outsAt1_A V c t0 (by omega) (by omega)]
    exact WideBody.out_A c (grid1.coords t0) (ms1_0 t0) (hs1_0 t0) (ms1_1 t0) (hs1_1 t0) (ms1_2 t0) (hs1_2 t0)
      (ms1_3 t0) (hs1_3 t0) (ms1_4 t0) (hs1_4 t0) _ _ (iblk1 V c 0 t0) (iblk1 V c 1 t0) (iblk1 V c 2 t0) (iblk1 V c 3 t0)
  have eB : outsAt1 (F := Ideal) V c t1.val t1.isLt
      = step (iblk1 V c 0 t1) (iblk1 V c 1 t1) (iblk1 V c 2 t1) (outsAt1 (F := Ideal) V c t0.val t0.isLt) := by
    rw [outsAt1_B V c t1 (by omega) (by omega), outsAt1_congr V c (show t1.val - 1 = t0.val by omega) _ t0.isLt]
    exact WideBody.out_B c (grid1.coords t1) (ms1_0 t1) (hs1_0 t1) (ms1_1 t1) (hs1_1 t1) (ms1_2 t1) (hs1_2 t1)
      (ms1_3 t1) (hs1_3 t1) (ms1_4 t1) (hs1_4 t1) _ _ (iblk1 V c 0 t1) (iblk1 V c 1 t1) (iblk1 V c 2 t1) (iblk1 V c 3 t1)
      (outsAt1 (F := Ideal) V c t0.val t0.isLt)
  rw [outsAt1_C V c t (by omega) h, outsAt1_congr V c (show t.val - 1 = t1.val by omega) _ t1.isLt, eB, eA]
  exact WideBody.out_C c (grid1.coords t) (ms1_0 t) (hs1_0 t) (ms1_1 t) (hs1_1 t) (ms1_2 t) (hs1_2 t)
    (ms1_3 t) (hs1_3 t) (ms1_4 t) (hs1_4 t) _ _ (iblk1 V c 0 t) (iblk1 V c 1 t) (iblk1 V c 2 t) (iblk1 V c 3 t)
    (step (iblk1 V c 0 t1) (iblk1 V c 1 t1) (iblk1 V c 2 t1)
      (step (iblk1 V c 0 t0) (iblk1 V c 1 t0) (iblk1 V c 2 t0) zeroTile))

/-! ## From the tiles to the array -/

section Array

variable (hs ht : (⟨2, ![1024, 384]⟩ : Shape).Idx → EReal) (w : (⟨2, ![768, 147456]⟩ : Shape).Idx → EReal)
  (β : (⟨1, ![768]⟩ : Shape).Idx → EReal)

/-- One point's sum, with its blocks read off the arrays: the point `s` of reduction step `ki` and output tile `t / 3`
    contributes block `ki` of the addends. -/
theorem point_sum_at
    (hhs : ∀ (b : Fin 1024) (i : Fin 384), V c main_arg0 (ix2 b i) = hs (ix2 b i))
    (hht : ∀ (b : Fin 1024) (j : Fin 384), V c main_arg1 (ix2 b j) = ht (ix2 b j))
    (hw : ∀ (n : Fin 768) (i j : Fin 384), V c main_v5 (ix3 n i j) = w (ix2 n ⟨i.val * 384 + j.val, by have := i.isLt; have := j.isLt; omega⟩))
    (s : Fin cfg1.N) (ki : Fin 3) (hki : s.val % 3 = ki.val) (b : Fin 1024) (n' : Fin 128) (n : Fin 768)
    (hn : n.val = 128 * (s.val / 3) + n'.val) :
    pointSum (iblk1 V c 0 s) (iblk1 V c 1 s) (iblk1 V c 2 s) b n'
      = ∑ κ : Fin 49152, addend hs ht w b n (blk ki κ) := by
  refine point_sum hs ht w (iblk1 V c 0 s) (iblk1 V c 1 s) (iblk1 V c 2 s) ki b n' n (fun i => ?_) (fun j => ?_) (fun i j => ?_)
  · exact (slab_block V c s b i ⟨128 * ki.val + i.val, by have := ki.isLt; have := i.isLt; omega⟩ (by rw [hki])).trans (hhs b _)
  · exact (whole_block V c s b j).trans (hht b j)
  · exact (weight_tile V c s n' i j n ⟨128 * ki.val + i.val, by have := ki.isLt; have := i.isLt; omega⟩ hn (by rw [hki])).trans (hw n _ j)

/-- The tile a run's last point writes back: all 1024 rows and columns `128 (t / 3) … 128 (t / 3) + 127` of the
    wide half. -/
theorem flushed_eq
    (hhs : ∀ (b : Fin 1024) (i : Fin 384), V c main_arg0 (ix2 b i) = hs (ix2 b i))
    (hht : ∀ (b : Fin 1024) (j : Fin 384), V c main_arg1 (ix2 b j) = ht (ix2 b j))
    (hw : ∀ (n : Fin 768) (i j : Fin 384), V c main_v5 (ix3 n i j) = w (ix2 n ⟨i.val * 384 + j.val, by have := i.isLt; have := j.isLt; omega⟩))
    (hβ : ∀ n : Fin 768, V c main_v6 (ix2 (0 : Fin 1) n) = β (ix1 n))
    (t : Fin cfg1.N) (hf : (cfg1.win 4).flush t = true) :
    (dat1 (F := Ideal) V c).flushed 4 t = ((cfg1.win 4).blk t).view.read (Elt Ideal) (Cert.Spec.wide hs ht w β) := by
  have h : t.val % 3 = 2 := (flush1_4 t).mp hf
  obtain ⟨ht18, -, -, -, -, -, -, -, -, -, e0, e1⟩ := block_indices t
  have hN : cfg1.N = 18 := N_1
  obtain ⟨t1, ht1⟩ : ∃ t1 : Fin cfg1.N, t1.val + 1 = t.val :=
    ⟨⟨t.val - 1, (by omega : t.val - 1 < 18).trans_eq hN.symm⟩, by show t.val - 1 + 1 = t.val; omega⟩
  obtain ⟨t0, ht0⟩ : ∃ t0 : Fin cfg1.N, t0.val + 2 = t.val :=
    ⟨⟨t.val - 2, (by omega : t.val - 2 < 18).trans_eq hN.symm⟩, by show t.val - 2 + 2 = t.val; omega⟩
  show (cfg1.win 4).cut (grid1.coords t) ((dat1 V c).after 4 t) = _
  rw [after1_4]
  funext j
  have hj0 : (j 0).val < 1024 := (j 0).isLt
  have hj1 : (j 1).val < 128 := (j 1).isLt
  have hin : (cfg1.win 4).xinj (grid1.coords t) j = ix2 (⟨(j 0).val, hj0⟩ : Fin 1024) (⟨(j 1).val, hj1⟩ : Fin 128) :=
    funext fun a => Fin.ext (by
      match a with
      | ⟨0, _⟩ => rfl
      | ⟨1, _⟩ => rfl)
  have hout : ((cfg1.win 4).blk t).view.emb j
      = ix2 (⟨(j 0).val, hj0⟩ : Fin 1024) (⟨128 * (t.val / 3) + (j 1).val, by omega⟩ : Fin 768) :=
    funext fun a => Fin.ext (by
      match a with
      | ⟨0, _⟩ => show win1_4.index t (0 : Fin 2) * 1024 + 1 * (j 0).val = (j 0).val; rw [e0]; omega
      | ⟨1, _⟩ => show win1_4.index t (1 : Fin 2) * 128 + 1 * (j 1).val = 128 * (t.val / 3) + (j 1).val; rw [e1]; omega)
  show outsAt1 (F := Ideal) V c t.val t.isLt ((cfg1.win 4).xinj (grid1.coords t) j)
    = Cert.Spec.wide hs ht w β (((cfg1.win 4).blk t).view.emb j)
  rw [hin, hout]
  refine (congrFun (tile_after V c t t1 t0 h ht1 ht0) (ix2 (⟨(j 0).val, hj0⟩ : Fin 1024) (⟨(j 1).val, hj1⟩ : Fin 128))).trans ?_
  refine tile_value hs ht w β (iblk1 V c 0 t0) (iblk1 V c 1 t0) (iblk1 V c 2 t0) (iblk1 V c 0 t1) (iblk1 V c 1 t1) (iblk1 V c 2 t1)
    (iblk1 V c 0 t) (iblk1 V c 1 t) (iblk1 V c 2 t) (iblk1 V c 3 t) ⟨(j 0).val, hj0⟩ ⟨(j 1).val, hj1⟩
    ⟨128 * (t.val / 3) + (j 1).val, by omega⟩ ?_ ?_ ?_ ?_
  · exact point_sum_at V c hs ht w hhs hht hw t0 0 (by show t0.val % 3 = 0; omega) ⟨(j 0).val, hj0⟩ ⟨(j 1).val, hj1⟩
      ⟨128 * (t.val / 3) + (j 1).val, by omega⟩
      (by show 128 * (t.val / 3) + (j 1).val = 128 * (t0.val / 3) + (j 1).val; omega)
  · exact point_sum_at V c hs ht w hhs hht hw t1 1 (by show t1.val % 3 = 1; omega) ⟨(j 0).val, hj0⟩ ⟨(j 1).val, hj1⟩
      ⟨128 * (t.val / 3) + (j 1).val, by omega⟩
      (by show 128 * (t.val / 3) + (j 1).val = 128 * (t1.val / 3) + (j 1).val; omega)
  · exact point_sum_at V c hs ht w hhs hht hw t 2 h ⟨(j 0).val, hj0⟩ ⟨(j 1).val, hj1⟩
      ⟨128 * (t.val / 3) + (j 1).val, by omega⟩ rfl
  · exact (bias_tile V c t ⟨(j 1).val, hj1⟩ ⟨128 * (t.val / 3) + (j 1).val, by omega⟩ rfl).trans (hβ _)

/-- After the region's write-backs the result array is the wide half: each run's last point writes its tile of it,
    and the six tiles cover the array. -/
theorem wide_array
    (hhs : ∀ (b : Fin 1024) (i : Fin 384), V c main_arg0 (ix2 b i) = hs (ix2 b i))
    (hht : ∀ (b : Fin 1024) (j : Fin 384), V c main_arg1 (ix2 b j) = ht (ix2 b j))
    (hw : ∀ (n : Fin 768) (i j : Fin 384), V c main_v5 (ix3 n i j) = w (ix2 n ⟨i.val * 384 + j.val, by have := i.isLt; have := j.isLt; omega⟩))
    (hβ : ∀ n : Fin 768, V c main_v6 (ix2 (0 : Fin 1) n) = β (ix1 n)) :
    (dat1 (F := Ideal) V c).arrAt 4 cfg1.N = Cert.Spec.wide hs ht w β :=
  (dat1 (F := Ideal) V c).arrAt_eq_of_cover 4 (Cert.Spec.wide hs ht w β)
    (fun t hf => flushed_eq V c hs ht w β hhs hht hw hβ t hf) blocks_cover

end Array

end Cert.KernelIdeal.WideValue

end
-- ==== Proof.KernelValue.lean ====
/-
  The idealized kernel's result as one function of the arguments.

  The result buffer ends holding the two regions' output arrays side by side. The deep region's array is the deep half
  of the specification at the joined features, the transposed weight read back as the weight, and the bias; the wide
  region's array is the wide half at the two feature matrices, the weight (whose stack of 384 × 384 slabs is the weight
  itself, position i · 384 + j) and the bias.
-/
import proofs.«181493_j79920751444429_2_alg».proof.Proof.KernelRun
import proofs.«181493_j79920751444429_2_alg».proof.Proof.DeepValue
import proofs.«181493_j79920751444429_2_alg».proof.Proof.WideValue

set_option maxRecDepth 16384

noncomputable section

namespace Cert.KernelIdeal.Result

open Cert.KernelIdeal Cert.KernelIdeal.Gen Cert.KernelIdeal.GenP
open Idealize.ShloMosaic Idealize.ShloMosaic.TcCoe Idealize.ShloMosaic.ValueIdx Idealize.SL.Sem

/-- The two halves of the specification, at the launch contents of the six arguments, joined along the columns. -/
def result (m : (ℓ : Loc nD τ sig) → Buf (Elt Ideal) ℓ) (c : Dev nD) : (⟨S1024x1536, .f32⟩ : BufTy).Contents (Elt Ideal) :=
  concatenate S1024x1536 1
    [⟨S1024x768, Cert.Spec.deep
        (concatenate S1024x768 1 [⟨S1024x384, m ((c : Thread nD τ).loc main_arg0)⟩, ⟨S1024x384, m ((c : Thread nD τ).loc main_arg1)⟩]
          concatenates_S1024x384_S1024x384_S1024x768_d1)
        (m ((c : Thread nD τ).loc main_arg2)) (m ((c : Thread nD τ).loc main_arg3))⟩,
     ⟨S1024x768, Cert.Spec.wide (m ((c : Thread nD τ).loc main_arg0)) (m ((c : Thread nD τ).loc main_arg1))
        (m ((c : Thread nD τ).loc main_arg4)) (m ((c : Thread nD τ).loc main_arg5))⟩]
    concatenates_S1024x768_S1024x768_S1024x1536_d1

/-- What the chain of stretches leaves in the result buffer is that function. -/
theorem final_eq (m : (ℓ : Loc nD τ sig) → Buf (Elt Ideal) ℓ) (ρ : Dev nD → PrngReg) (c : Dev nD) :
    W5 m ρ c (Proc.devRef .tc main_v8) = result m c := by
  rw [RunValue.result_eq,
    DeepValue.deep_array (V1 m ρ) c _ _ _ (fun b k => congrFun (RunValue.entry_v0 m ρ c) (ix2 b k))
      (RunValue.entry_v1 m ρ c) (RunValue.entry_v2 m ρ c),
    WideValue.wide_array (V3 m ρ) c _ _ _ _ (fun b i => congrFun (RunValue.entry_arg0 m ρ c) (ix2 b i))
      (fun b j => congrFun (RunValue.entry_arg1 m ρ c) (ix2 b j)) (RunValue.entry_v5 m ρ c) (RunValue.entry_v6 m ρ c)]
  rfl

/-- Every weakly fair execution of the idealized kernel terminates with the result buffer at `result` and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (final_eq m ρ c), (h c).2⟩) (RunValue.run_named m ρ)

end Cert.KernelIdeal.Result

end
-- ==== Proof.RefSide.lean ====
/-
  The reference's side of the bridge: its run read one operation at a time.

  The reference computes two [1024, 768] halves and lays them side by side.
  * Deep half: the two feature blocks joined along their second axis, contracted with the transposed
    [768, 768] weight over the 768 joined features, plus the bias broadcast along the rows. At (b, n) this is
    (∑ k < 768, joined(b, k) · w(n, k)) + β(n): the transpose only swaps the weight's two coordinates.
  * Wide half: the outer product hs(b, p) · ht(b, q) as a [1024, 384, 384] array, flattened row-major to
    [1024, 147456] and contracted with the transposed [768, 147456] weight, plus the bias. Position K of the
    flattened axis is the pair (p, q) = (K / 384, K % 384), so at (b, n) this is
    (∑ K < 147456, (hs(b, K / 384) · ht(b, K % 384)) · w(n, K)) + β(n).
  Nothing here uses more than reading each operation at an index; no law of arithmetic is needed, because both
  sides are the same sum in the same order.
-/
import proofs.«181493_j79920751444429_2_alg».proof.Proof.Gen.ReferenceIdeal.Read
import proofs.«181493_j79920751444429_2_alg».proof.Proof.Spec
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Cert.ReferenceIdeal.Read Idealize.ShloMosaic Idealize.ShloMosaic.ValueIdx

/-! ## Where each composed index lands

Every layout operation reads its operand at an index computed from the result's index. Composing these along
each chain of operations gives, at the result index (b, n) and contraction position k, an index of an argument
array; the lemmas below name that index by its coordinates. -/

/-- Deep half, left operand: entry (b, k) of the joined features. -/
theorem lidx_deep (b : Fin 1024) (n k : Fin 768) : lidx_main_v2 (ix2 b n) k = ix2 b k :=
  funext fun a => Fin.ext (by match a with | ⟨0, _⟩ => rfl | ⟨1, _⟩ => rfl)

/-- Deep half, right operand: the transposed weight at (k, n) is the weight at (n, k). -/
theorem ridx_deep (b : Fin 1024) (n k : Fin 768) : idx_main_v1 (ridx_main_v2 (ix2 b n) k) = ix2 n k :=
  funext fun a => Fin.ext (by match a with | ⟨0, _⟩ => rfl | ⟨1, _⟩ => rfl)

/-- Deep half, bias: the bias broadcast to [1, 768] and then to [1024, 768] is read at n. -/
theorem bidx_deep (b : Fin 1024) (n : Fin 768) : idx_main_v3 (idx_main_v4 (ix2 b n)) = ix1 n :=
  funext fun a => Fin.ext (by match a with | ⟨0, _⟩ => rfl)

/-- Wide half, first factor of the outer product: position K of the flattened axis in row b comes from
    flat offset b · 147456 + K of the [1024, 384, 384] array, whose first two coordinates are b and K / 384. -/
theorem hsidx_wide (b : Fin 1024) (n : Fin 768) (K : Fin 147456) :
    idx_main_v6 (idx_main_v8 (idx_main_v11 (lidx_main_v13 (ix2 b n) K))) = ix2 b (Cert.Spec.hi K) :=
  funext fun a => Fin.ext (by
    have hb : b.val < 1024 := b.isLt
    have hK : K.val < 147456 := K.isLt
    match a with
    | ⟨0, _⟩ => show (b.val * 147456 + K.val) / 147456 = b.val; omega
    | ⟨1, _⟩ => show (b.val * 147456 + K.val) / 384 % 384 = K.val / 384; omega)

/-- Wide half, second factor of the outer product: the same flat offset has last coordinate K % 384. -/
theorem htidx_wide (b : Fin 1024) (n : Fin 768) (K : Fin 147456) :
    idx_main_v7 (idx_main_v9 (idx_main_v11 (lidx_main_v13 (ix2 b n) K))) = ix2 b (Cert.Spec.lo K) :=
  funext fun a => Fin.ext (by
    have hb : b.val < 1024 := b.isLt
    have hK : K.val < 147456 := K.isLt
    match a with
    | ⟨0, _⟩ => show (b.val * 147456 + K.val) / 147456 = b.val; omega
    | ⟨1, _⟩ => show (b.val * 147456 + K.val) % 384 = K.val % 384; omega)

/-- Wide half, right operand: the transposed weight at (K, n) is the weight at (n, K). -/
theorem ridx_wide (b : Fin 1024) (n : Fin 768) (K : Fin 147456) :
    idx_main_v12 (ridx_main_v13 (ix2 b n) K) = ix2 n K :=
  funext fun a => Fin.ext (by match a with | ⟨0, _⟩ => rfl | ⟨1, _⟩ => rfl)

/-- Wide half, bias: read at n. -/
theorem bidx_wide (b : Fin 1024) (n : Fin 768) : idx_main_v14 (idx_main_v15 (ix2 b n)) = ix1 n :=
  funext fun a => Fin.ext (by match a with | ⟨0, _⟩ => rfl)

/-! ## The two halves -/

/-- The deep half of the reference is the contraction of the joined features with the weight's rows, plus the
    bias. The join of the two feature blocks is kept as one array and never opened. -/
theorem deep_eq (x0 x1 : (⟨S1024x384, .f32⟩ : BufTy).Contents (Elt Ideal)) (x2 : (⟨S768x768, .f32⟩ : BufTy).Contents (Elt Ideal)) (x3 : (⟨S768, .f32⟩ : BufTy).Contents (Elt Ideal)) :
    val_main_v5 (F := Ideal) x0 x1 x2 x3 = Cert.Spec.deep (val_main_v0 (F := Ideal) x0 x1) x2 x3 := by
  funext i
  obtain ⟨b, n, rfl⟩ : ∃ (b : Fin 1024) (n : Fin 768), i = ix2 b n := ⟨i 0, i 1, eq_ix2 i⟩
  rw [val_main_v5_apply, val_main_v2_apply, val_main_v4_apply, val_main_v3_apply, bidx_deep]
  generalize val_main_v0 (F := Ideal) x0 x1 = y
  simp only [val_main_v1_apply, lidx_deep, ridx_deep, Ideal.addf_def]
  rfl

/-- The wide half of the reference is the contraction of the flattened outer product of the two feature rows
    with the big weight's rows, plus the bias. -/
theorem wide_eq (x0 x1 : (⟨S1024x384, .f32⟩ : BufTy).Contents (Elt Ideal)) (x4 : (⟨S768x147456, .f32⟩ : BufTy).Contents (Elt Ideal)) (x5 : (⟨S768, .f32⟩ : BufTy).Contents (Elt Ideal)) :
    val_main_v16 (F := Ideal) x0 x1 x4 x5 = Cert.Spec.wide x0 x1 x4 x5 := by
  funext i
  obtain ⟨b, n, rfl⟩ : ∃ (b : Fin 1024) (n : Fin 768), i = ix2 b n := ⟨i 0, i 1, eq_ix2 i⟩
  rw [val_main_v16_apply, val_main_v13_apply, val_main_v15_apply, val_main_v14_apply, bidx_wide]
  simp only [val_main_v11_apply, val_main_v10_apply, val_main_v8_apply, val_main_v6_apply, val_main_v9_apply,
    val_main_v7_apply, val_main_v12_apply, hsidx_wide, htidx_wide, ridx_wide, Ideal.addf_def, Ideal.mulf_def]
  rfl

/-- The whole result: the two halves side by side, each in its index-by-index form. -/
theorem result_eq (x0 x1 : (⟨S1024x384, .f32⟩ : BufTy).Contents (Elt Ideal)) (x2 : (⟨S768x768, .f32⟩ : BufTy).Contents (Elt Ideal)) (x3 : (⟨S768, .f32⟩ : BufTy).Contents (Elt Ideal)) (x4 : (⟨S768x147456, .f32⟩ : BufTy).Contents (Elt Ideal)) (x5 : (⟨S768, .f32⟩ : BufTy).Contents (Elt Ideal)) :
    val_main_v17 (F := Ideal) x0 x1 x2 x3 x4 x5
      = concatenate S1024x1536 1 [⟨S1024x768, Cert.Spec.deep (concatenate S1024x768 1 [⟨S1024x384, x0⟩, ⟨S1024x384, x1⟩] concatenates_S1024x384_S1024x384_S1024x768_d1) x2 x3⟩, ⟨S1024x768, Cert.Spec.wide x0 x1 x4 x5⟩] concatenates_S1024x768_S1024x768_S1024x1536_d1 := by
  unfold val_main_v17
  rw [deep_eq, wide_eq]
  rfl

end Cert.RefSide

end
-- ==== Proof.lean ====
/-
  The certificate's five claims.

  The program computes, for a batch of 1024 feature pairs, two linear maps laid side by side: a deep half, the joined
  features against a 768 × 768 weight plus a bias, and a wide half, each pair's flattened 384 × 384 outer product
  against a 768 × 147456 weight plus a bias. The kernel computes the deep half in one region and the wide half in
  another, where the long contraction is cut into three consecutive blocks of 49152 positions accumulated into the
  output tile across grid points; the reference does each half with one product. On the extended reals a change of
  float format is the identity and both kinds of product are plain finite sums, so the two programs' results are one
  function of the arguments: the three blocks' sums, added in order onto zero, are the whole sum, by associativity and
  commutativity of addition alone — no finiteness of the inputs is used.

  * The three frames: the two kernels' runs terminate and leave the arguments as launched (their frame certificates);
    the reference's frame is its run with the result forgotten.
  * The idealization rewrote no operation, so there is nothing to preserve.
  * The algebraic claim: the kernel's run ends with the result at `Result.result`, the reference's with its composed
    term, which is the same function (`RefSide.result_eq`) of arguments that agree.
-/
import proofs.«181493_j79920751444429_2_alg».proof.Defs
import proofs.«181493_j79920751444429_2_alg».proof.Proof.Gen.Kernel
import proofs.«181493_j79920751444429_2_alg».proof.Proof.Gen.KernelIdeal
import proofs.«181493_j79920751444429_2_alg».proof.Proof.Gen.ReferenceIdeal
import proofs.«181493_j79920751444429_2_alg».proof.Proof.Gen.Pre_finite_inputs
import proofs.«181493_j79920751444429_2_alg».proof.Proof.Gen.ReferenceIdeal.Run
import proofs.«181493_j79920751444429_2_alg».proof.Proof.Gen.ReferenceIdeal.Read
import proofs.«181493_j79920751444429_2_alg».proof.Proof.KernelFrame
import proofs.«181493_j79920751444429_2_alg».proof.Proof.KernelIdealFrame
import proofs.«181493_j79920751444429_2_alg».proof.Proof.KernelValue
import proofs.«181493_j79920751444429_2_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.RefSide.result_eq, (hagree c).1, (hagree c).2.1, (hagree c).2.2.1,
    (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
